-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S64x128 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S64x128 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S128x64 : Shape := ⟨2, ![128, 64]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 85
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S128x128, .f32⟩
  | .hbm, ⟨30, _⟩ => ⟨S128x128, .f32⟩
  | .hbm, ⟨31, _⟩ => ⟨S128x64, .f32⟩
  | .hbm, ⟨32, _⟩ => ⟨S50000x1, .f32⟩
  | .hbm, ⟨33, _⟩ => ⟨S50000x128, .bf16⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000x128, .bf16⟩
  | .hbm, ⟨43, _⟩ => ⟨S850000x128, .f32⟩
  | .hbm, ⟨44, _⟩ => ⟨S_, .f32⟩
  | .hbm, ⟨45, _⟩ => ⟨S50000x128, .f32⟩
  | .hbm, ⟨46, _⟩ => ⟨S850000x1, .i32⟩
  | .hbm, ⟨47, _⟩ => ⟨S50000x128, .f32⟩
  | .hbm, ⟨48, _⟩ => ⟨S50000x1, .f32⟩
  | .hbm, ⟨49, _⟩ => ⟨S1x128, .f32⟩
  | .hbm, ⟨50, _⟩ => ⟨S50000x128, .bf16⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .bf16⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S50000x1, .f32⟩
  | .hbm, ⟨66, _⟩ => ⟨S1x128, .f32⟩
  | .hbm, ⟨67, _⟩ => ⟨S50000x64, .bf16⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .bf16⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S50000x1, .f32⟩
  | .hbm, ⟨83, _⟩ => ⟨S1x64, .f32⟩
  | .hbm, ⟨84, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x64, .f32⟩
  | .local _ .vmem, ⟨21, _⟩ => ⟨S5000x64, .bf16⟩
  | .local _ .vmem, ⟨22, _⟩ => ⟨S5000x64, .bf16⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  transposes_S64x128_S128x64_1_0 : S64x128.Transposes [1, 0] S128x64
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .bf16 = 32 ∨ (Rect.block (s := S50000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .bf16 = 32 ∨ (Rect.block (s := S50000x64) S5000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S128x64 : Shape := ⟨2, ![128, 64]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S128x128, .f32⟩
  | .hbm, ⟨49, _⟩ => ⟨S50000x128, .f32⟩
  | .hbm, ⟨50, _⟩ => ⟨S850000x1, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S128x128, .f32⟩
  | .hbm, ⟨73, _⟩ => ⟨S50000x128, .f32⟩
  | .hbm, ⟨74, _⟩ => ⟨S850000x1, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x128, .f32⟩
  | .hbm, ⟨85, _⟩ => ⟨S850000x128, .f32⟩
  | .hbm, ⟨86, _⟩ => ⟨S_, .f32⟩
  | .hbm, ⟨87, _⟩ => ⟨S50000x128, .f32⟩
  | .hbm, ⟨88, _⟩ => ⟨S850000x1, .i32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S128x64, .f32⟩
  | .hbm, ⟨97, _⟩ => ⟨S50000x64, .f32⟩
  | .hbm, ⟨98, _⟩ => ⟨S850000x1, .f32⟩
  | .hbm, ⟨99, _⟩ => ⟨S_, .i32⟩
  | .hbm, ⟨100, _⟩ => ⟨S850000, .i32⟩
  | .hbm, ⟨101, _⟩ => ⟨S850000, .i1⟩
  | .hbm, ⟨102, _⟩ => ⟨S_, .i32⟩
  | .hbm, ⟨103, _⟩ => ⟨S850000, .i32⟩
  | .hbm, ⟨104, _⟩ => ⟨S850000, .i32⟩
  | .hbm, ⟨105, _⟩ => ⟨S850000, .i32⟩
  | .hbm, ⟨106, _⟩ => ⟨S850000x1, .i32⟩
  | .hbm, ⟨107, _⟩ => ⟨S850000x64, .f32⟩
  | .hbm, ⟨108, _⟩ => ⟨S850000x64, .f32⟩
  | .hbm, ⟨109, _⟩ => ⟨S850000x64, .f32⟩
  | .hbm, ⟨110, _⟩ => ⟨S_, .f32⟩
  | .hbm, ⟨111, _⟩ => ⟨S50000x64, .f32⟩
  | .hbm, ⟨112, _⟩ => ⟨S850000x1, .i32⟩
  | .hbm, ⟨113, _⟩ => ⟨S50000x64, .f32⟩
  | .hbm, ⟨114, _⟩ => ⟨S1x64, .f32⟩
  | .hbm, ⟨115, _⟩ => ⟨S50000x64, .f32⟩
  | .hbm, ⟨116, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call2_cst : Ref sig .tc := ⟨.hbm, 93, rfl⟩
abbrev main_call2_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_12 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_14 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its RESULT named.

  @main is ten segments: stretches of host operations and four kernel regions. The buffer contents at each segment boundary
  are a fold from the launch memory (`Gen.W0` … `Gen.W10`: a stretch applies its operations, a region replaces its arrays by
  what its write-backs leave). Every weakly fair execution terminates, nothing faulting, and in every final state each
  unscoped buffer holds the last boundary's contents `Gen.W10`. Read at the arguments that gives the frame; read at the
  result buffer `main_v61` it gives the kernel's value: `W10 m ρ c main_v61`, which the modules after this one compute.
-/
import proofs.«101799_j10368051053156_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its ten segments, the last thread state read against the final state at the result buffer
    and at each argument: the result ends at the last boundary's contents, the arguments as launched. -/
theorem run_value : θ_run defs (onTc (τ := τ) (main (F := F))) ⟨m, fun _ => 0, ρ⟩ (fun r => ∀ c : Dev nD,
      r.2.mem ((c.tc : Thread nD τ).loc main_v61) = W10 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v61 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.RunValue

end
-- ==== Proof.GcnSpec.lean ====
/-
  Three layers of a graph convolution with symmetric degree normalisation, over the extended reals, in two spellings.

  `E` messages (the edges and one self-loop per node) with a signed target `cI e` and a source node `s e`; a message lands on
  node `n` when its target IS `n`. A node factor `d`. One layer maps features `h` through a weight matrix `w` (`proj`),
  accumulates at every node the messages that land on it, adds a bias and (except at the last layer) cuts at zero.

  * The first spelling scales a node's projected features by its own factor BEFORE they are sent (so message `e` carries
    `d (s e) * u (s e) k`), and scales the accumulated total by the receiving node's factor afterwards (`aggK`, `hidK`, `outK`).
  * The second scales message `e` by the product `d (s e) * d (g e)` of both end factors, `g e` being the target read as a node
    (`aggR`, `hidR`, `outR`).

  They agree (`outK_eq_outR`) whenever every factor is a nonnegative real number and `g e = n` for every message landing on `n`:
  a nonnegative real distributes over a finite sum of extended reals whatever the terms are (infinite features included), and
  multiplication of extended reals is commutative and associative.
-/
import Idealize.ShloMosaic.PureOps.Ideal

noncomputable section

namespace Cert.Gcn

open scoped BigOperators

variable {N E : ℕ}

/-- The sum of `f e` over the messages `e` whose signed target is the node `n`. -/
def landed (cI : Fin E → ℤ) (f : Fin E → EReal) (n : Fin N) : EReal :=
  ∑ e : Fin E, if cI e = (n.val : ℤ) then f e else 0

/-- Features through a weight matrix `w : [out, in]`: entry `(i, k)` is `∑ j, h i j * w k j`. -/
def proj {A K M : ℕ} (h : Fin A → Fin K → EReal) (w : Fin M → Fin K → EReal) (i : Fin A) (k : Fin M) : EReal :=
  ∑ j : Fin K, h i j * w k j

/-- First spelling: the messages, already scaled at their source, accumulated from zero at node `n`. -/
def aggK {C : ℕ} (cI : Fin E → ℤ) (s : Fin E → Fin N) (d : Fin N → EReal) (u : Fin N → Fin C → EReal)
    (n : Fin N) (k : Fin C) : EReal :=
  0 + landed cI (fun e => d (s e) * u (s e) k) n

/-- Second spelling: every message scaled by both end factors, accumulated from zero at node `n`. -/
def aggR {C : ℕ} (cI : Fin E → ℤ) (s g : Fin E → Fin N) (d : Fin N → EReal) (u : Fin N → Fin C → EReal)
    (n : Fin N) (k : Fin C) : EReal :=
  0 + landed cI (fun e => (d (s e) * d (g e)) * u (s e) k) n

/-- A nonnegative real factor distributes over a finite sum of extended reals. -/
theorem real_mul_sum {ι : Type*} (t : Finset ι) (f : ι → EReal) (r : ℝ) (hr0 : 0 ≤ r) :
    (r : EReal) * ∑ e ∈ t, f e = ∑ e ∈ t, (r : EReal) * f e := by
  classical
  induction t using Finset.induction_on with
  | empty => rw [Finset.sum_empty, Finset.sum_empty, mul_zero]
  | insert x t hx ih =>
    rw [Finset.sum_insert hx, Finset.sum_insert hx, ← ih,
      EReal.left_distrib_of_nonneg_of_ne_top (EReal.coe_nonneg.mpr hr0) (EReal.coe_ne_top r)]

/-- The receiving node's factor, a nonnegative real, goes inside the accumulated sum: the two aggregates agree. -/
theorem agg_eq {C : ℕ} (cI : Fin E → ℤ) (s g : Fin E → Fin N) (d : Fin N → EReal)
    (hd : ∀ n, ∃ r : ℝ, 0 ≤ r ∧ d n = (r : EReal)) (hg : ∀ e (n : Fin N), cI e = (n.val : ℤ) → g e = n)
    (u : Fin N → Fin C → EReal) (n : Fin N) (k : Fin C) :
    d n * aggK cI s d u n k = aggR cI s g d u n k := by
  obtain ⟨r, hr0, hr⟩ := hd n
  unfold aggK aggR landed
  rw [zero_add, zero_add, hr, real_mul_sum _ _ r hr0]
  refine Finset.sum_congr rfl fun e _ => ?_
  by_cases h : cI e = (n.val : ℤ)
  · rw [if_pos h, if_pos h]
    show (r : EReal) * (d (s e) * u (s e) k) = (d (s e) * d (g e)) * u (s e) k
    rw [hg e n h, hr, ← mul_assoc, mul_comm (r : EReal) (d (s e))]
  · rw [if_neg h, if_neg h, mul_zero]

/-- First spelling, a hidden layer: scale the total by the node's factor, add the bias, cut at zero. -/
def hidK {C : ℕ} (cI : Fin E → ℤ) (s : Fin E → Fin N) (d : Fin N → EReal) (u : Fin N → Fin C → EReal)
    (b : Fin C → EReal) (n : Fin N) (k : Fin C) : EReal :=
  max (d n * aggK cI s d u n k + b k) 0

/-- Second spelling, a hidden layer: add the bias, cut at zero. -/
def hidR {C : ℕ} (cI : Fin E → ℤ) (s g : Fin E → Fin N) (d : Fin N → EReal) (u : Fin N → Fin C → EReal)
    (b : Fin C → EReal) (n : Fin N) (k : Fin C) : EReal :=
  max (aggR cI s g d u n k + b k) 0

theorem hid_eq {C : ℕ} (cI : Fin E → ℤ) (s g : Fin E → Fin N) (d : Fin N → EReal)
    (hd : ∀ n, ∃ r : ℝ, 0 ≤ r ∧ d n = (r : EReal)) (hg : ∀ e (n : Fin N), cI e = (n.val : ℤ) → g e = n)
    (u : Fin N → Fin C → EReal) (b : Fin C → EReal) :
    hidK cI s d u b = hidR cI s g d u b := by
  funext n k
  unfold hidK hidR
  rw [agg_eq cI s g d hd hg]

/-- First spelling: the three layers (two hidden, the last without the cut). -/
def outK {C0 C1 C2 C3 : ℕ} (cI : Fin E → ℤ) (s : Fin E → Fin N) (d : Fin N → EReal) (x : Fin N → Fin C0 → EReal)
    (w0 : Fin C1 → Fin C0 → EReal) (b0 : Fin C1 → EReal) (w1 : Fin C2 → Fin C1 → EReal) (b1 : Fin C2 → EReal)
    (w2 : Fin C3 → Fin C2 → EReal) (b2 : Fin C3 → EReal) (n : Fin N) (k : Fin C3) : EReal :=
  d n * aggK cI s d (proj (hidK cI s d (proj (hidK cI s d (proj x w0) b0) w1) b1) w2) n k + b2 k

/-- Second spelling: the three layers. -/
def outR {C0 C1 C2 C3 : ℕ} (cI : Fin E → ℤ) (s g : Fin E → Fin N) (d : Fin N → EReal) (x : Fin N → Fin C0 → EReal)
    (w0 : Fin C1 → Fin C0 → EReal) (b0 : Fin C1 → EReal) (w1 : Fin C2 → Fin C1 → EReal) (b1 : Fin C2 → EReal)
    (w2 : Fin C3 → Fin C2 → EReal) (b2 : Fin C3 → EReal) (n : Fin N) (k : Fin C3) : EReal :=
  aggR cI s g d (proj (hidR cI s g d (proj (hidR cI s g d (proj x w0) b0) w1) b1) w2) n k + b2 k

/-- The two spellings of the three layers agree at every node and feature. -/
theorem outK_eq_outR {C0 C1 C2 C3 : ℕ} (cI : Fin E → ℤ) (s g : Fin E → Fin N) (d : Fin N → EReal)
    (hd : ∀ n, ∃ r : ℝ, 0 ≤ r ∧ d n = (r : EReal)) (hg : ∀ e (n : Fin N), cI e = (n.val : ℤ) → g e = n)
    (x : Fin N → Fin C0 → EReal)
    (w0 : Fin C1 → Fin C0 → EReal) (b0 : Fin C1 → EReal) (w1 : Fin C2 → Fin C1 → EReal) (b1 : Fin C2 → EReal)
    (w2 : Fin C3 → Fin C2 → EReal) (b2 : Fin C3 → EReal) (n : Fin N) (k : Fin C3) :
    outK cI s d x w0 b0 w1 b1 w2 b2 n k = outR cI s g d x w0 b0 w1 b1 w2 b2 n k := by
  unfold outK outR
  rw [agg_eq cI s g d hd hg, hid_eq cI s g d hd hg, hid_eq cI s g d hd hg]

/-! ## The node factor -/

/-- The number of messages landing on `n`, accumulated from zero as a sum of ones. -/
def deg (cI : Fin E → ℤ) (n : Fin N) : EReal := 0 + landed cI (fun _ => 1) n

/-- The node factor: the reciprocal square root of the degree where the degree is positive, else zero. -/
def dinv (cI : Fin E → ℤ) (n : Fin N) : EReal :=
  if 0 < deg cI n then Idealize.ShloMosaic.Ideal.rsqrt (deg cI n) else 0

/-- A finite sum of ones and zeros is a natural number. -/
theorem sum_boole_eq_natCast {ι : Type*} (t : Finset ι) (p : ι → Prop) [DecidablePred p] :
    ∃ k : ℕ, (∑ e ∈ t, if p e then (1 : EReal) else 0) = (((k : ℝ)) : EReal) := by
  classical
  induction t using Finset.induction_on with
  | empty => exact ⟨0, by rw [Finset.sum_empty, Nat.cast_zero, EReal.coe_zero]⟩
  | insert x t hx ih =>
    obtain ⟨k, hk⟩ := ih
    rw [Finset.sum_insert hx, hk]
    by_cases h : p x
    · refine ⟨k + 1, ?_⟩
      rw [if_pos h, Nat.cast_add, Nat.cast_one, EReal.coe_add, EReal.coe_one, add_comm]
    · exact ⟨k, by rw [if_neg h, zero_add]⟩

/-- The node factor is a nonnegative real number at every node. -/
theorem dinv_real (cI : Fin E → ℤ) (n : Fin N) : ∃ r : ℝ, 0 ≤ r ∧ dinv cI n = (r : EReal) := by
  obtain ⟨k, hk⟩ := sum_boole_eq_natCast Finset.univ (fun e : Fin E => cI e = (n.val : ℤ))
  have hdeg : deg cI n = (((k : ℝ)) : EReal) := by
    unfold deg landed
    rw [zero_add, hk]
  unfold dinv
  rw [hdeg]
  by_cases hpos : (0 : EReal) < (((k : ℝ)) : EReal)
  · rw [if_pos hpos]
    have hk0 : (0 : ℝ) < (k : ℝ) := EReal.coe_pos.mp hpos
    refine ⟨(Real.sqrt (k : ℝ))⁻¹, inv_nonneg.mpr (Real.sqrt_nonneg _), ?_⟩
    rw [Idealize.ShloMosaic.Ideal.rsqrt_coe, if_neg (not_lt.mpr hk0.le), if_neg hk0.ne']
  · rw [if_neg hpos]
    exact ⟨0, le_refl _, EReal.coe_zero.symm⟩

end Cert.Gcn

end
-- ==== Proof.LibScatter.lean ====
/-
  A host scatter read at one index.

  `Host.scatter d f x idx upd` is the left fold, over the update indices in row-major order, of the step
  "replace the element at the update's landing index by `f` of it and the update". Read at one operand
  index `i` the fold only sees the updates that land on `i`; when at most one does, the result there is
  `f (x i) (upd j)` for that one update `j`, or `x i` when none lands. Where an update lands
  (`ScatterDims.resultIdx?`) is, coordinate by coordinate, its start plus its window coordinate.
-/
import Idealize.ShloMosaic.PureOps

namespace Idealize.ShloMosaic

/-! ## A fold of pointwise overwrites, read at one index -/

section Fold

variable {ι κ α : Type} (g : ι → Option κ) (f : α → α → α) (v : ι → α)
  (step : (κ → α) → ι → (κ → α)) (i : κ)

/-- A fold of steps none of which touches `i` leaves the value at `i`. -/
theorem foldl_overwrite_miss (hmiss : ∀ r n, g n ≠ some i → step r n i = r i) :
    ∀ (l : List ι) (r : κ → α), (∀ n ∈ l, g n ≠ some i) → l.foldl step r i = r i
  | [], _, _ => rfl
  | a :: l, r, h => by
    rw [List.foldl_cons, foldl_overwrite_miss hmiss l (step r a) fun n hn => h n (List.mem_cons_of_mem _ hn)]
    exact hmiss r a (h a List.mem_cons_self)

/-- A fold over a list without repetitions in which exactly one step, `n`, touches `i`: the value at `i`
    is that step's. -/
theorem foldl_overwrite_hit (hmiss : ∀ r n, g n ≠ some i → step r n i = r i)
    (hhit : ∀ r n, g n = some i → step r n i = f (r i) (v n)) (n : ι) (hn : g n = some i) :
    ∀ (l : List ι) (r : κ → α), l.Nodup → n ∈ l → (∀ n' ∈ l, g n' = some i → n' = n) →
      l.foldl step r i = f (r i) (v n)
  | [], _, _, hmem, _ => absurd hmem List.not_mem_nil
  | a :: l, r, hnd, hmem, huniq => by
    rw [List.foldl_cons]
    by_cases ha : a = n
    · subst ha
      have hnot : a ∉ l := (List.nodup_cons.mp hnd).1
      rw [foldl_overwrite_miss g step i hmiss l (step r a) fun n' hn' hg =>
        hnot (huniq n' (List.mem_cons_of_mem _ hn') hg ▸ hn')]
      exact hhit r a hn
    · have hga : g a ≠ some i := fun hg => ha (huniq a List.mem_cons_self hg)
      have hmem' : n ∈ l := (List.mem_cons.mp hmem).resolve_left fun e => ha e.symm
      rw [foldl_overwrite_hit hmiss hhit n hn l (step r a) (List.nodup_cons.mp hnd).2 hmem'
        fun n' hn' => huniq n' (List.mem_cons_of_mem _ hn'), hmiss r a hga]

end Fold

/-! ## The host scatter at an index -/

namespace Host

variable {s si u : Shape} {α : Type} {w : Nat}

/-- The scatter's step leaves an index the update does not land on. -/
private theorem scatter_step_miss (d : ScatterDims s si u) (f : α → α → α) (idx : IVec si w) (upd : u.Idx → α) (i : s.Idx)
    (r : s.Idx → α) (n : Fin u.numel) (h : d.resultIdx? (u.rowMajor.symm n) idx ≠ some i) :
    (match d.resultIdx? (u.rowMajor.symm n) idx with
      | some k => fun i' => if i' = k then f (r k) (upd (u.rowMajor.symm n)) else r i'
      | none => r) i = r i := by
  generalize d.resultIdx? (u.rowMajor.symm n) idx = o at h
  cases o with
  | none => rfl
  | some k =>
    have hne : i ≠ k := fun e => h (congrArg some e.symm)
    dsimp only
    exact if_neg hne

/-- The scatter's step at the index the update lands on. -/
private theorem scatter_step_hit (d : ScatterDims s si u) (f : α → α → α) (idx : IVec si w) (upd : u.Idx → α) (i : s.Idx)
    (r : s.Idx → α) (n : Fin u.numel) (h : d.resultIdx? (u.rowMajor.symm n) idx = some i) :
    (match d.resultIdx? (u.rowMajor.symm n) idx with
      | some k => fun i' => if i' = k then f (r k) (upd (u.rowMajor.symm n)) else r i'
      | none => r) i = f (r i) (upd (u.rowMajor.symm n)) := by
  generalize d.resultIdx? (u.rowMajor.symm n) idx = o at h
  cases o with
  | none => exact absurd h (by simp)
  | some k =>
    have hk : k = i := Option.some.inj h
    subst hk
    dsimp only
    exact if_pos rfl

/-- No update lands on `i`: the scatter leaves the operand's element. -/
theorem scatter_apply_of_miss (d : ScatterDims s si u) (f : α → α → α) (x : s.Idx → α) (idx : IVec si w) (upd : u.Idx → α)
    (i : s.Idx) (hmiss : ∀ j, d.resultIdx? j idx ≠ some i) : Host.scatter d f x idx upd i = x i := by
  unfold Host.scatter
  exact foldl_overwrite_miss (fun n => d.resultIdx? (u.rowMajor.symm n) idx) _ i
    (fun r n h => scatter_step_miss d f idx upd i r n h) _ x fun n _ => hmiss _

/-- Exactly one update, `j`, lands on `i`: the scatter's element there is `f` of the operand's and that update. -/
theorem scatter_apply_of_hit (d : ScatterDims s si u) (f : α → α → α) (x : s.Idx → α) (idx : IVec si w) (upd : u.Idx → α)
    (i : s.Idx) (j : u.Idx) (hj : d.resultIdx? j idx = some i) (huniq : ∀ j', d.resultIdx? j' idx = some i → j' = j) :
    Host.scatter d f x idx upd i = f (x i) (upd j) := by
  unfold Host.scatter
  have hn : d.resultIdx? (u.rowMajor.symm (u.rowMajor j)) idx = some i := by rw [Equiv.symm_apply_apply]; exact hj
  have h := foldl_overwrite_hit (fun n => d.resultIdx? (u.rowMajor.symm n) idx) f (fun n => upd (u.rowMajor.symm n)) _ i
    (fun r n h => scatter_step_miss d f idx upd i r n h) (fun r n h => scatter_step_hit d f idx upd i r n h)
    (u.rowMajor j) hn (List.finRange u.numel) x (List.nodup_finRange _) (List.mem_finRange _)
    (fun n' _ hg => (Equiv.symm_apply_eq _).mp (huniq _ hg))
  exact h.trans (by rw [Equiv.symm_apply_apply])

end Host

/-! ## Where an update lands -/

namespace ScatterDims

variable {s si u : Shape} (d : ScatterDims s si u) {w : Nat}

/-- Update `j` lands on `i` exactly when, on every operand axis, `i`'s coordinate is the start plus the
    window coordinate. -/
theorem resultIdx?_eq_some_iff (j : u.Idx) (idx : IVec si w) (i : s.Idx) :
    d.resultIdx? j idx = some i ↔ ∀ a, ((i a).val : Int) = d.start j idx a + d.window j a := by
  unfold resultIdx?
  constructor
  · intro h a
    split at h
    · rename_i hb
      have e := congrFun (Option.some.inj h) a
      have e' : (d.start j idx a + ↑(d.window j a)).toNat = (i a).val := congrArg Fin.val e
      have := (hb a).1
      omega
    · exact absurd h (by simp)
  · intro h
    have hb : ∀ a, 0 ≤ d.start j idx a + ↑(d.window j a) ∧ d.start j idx a + ↑(d.window j a) < ↑(s.size a) := fun a => by
      have := h a; have := (i a).isLt; omega
    rw [dif_pos hb]
    refine congrArg some (funext fun a => Fin.ext ?_)
    show (d.start j idx a + ↑(d.window j a)).toNat = (i a).val
    have := h a; omega

end ScatterDims

end Idealize.ShloMosaic
-- ==== Proof.LibEdges.lean ====
/-
  Gathers and accumulating scatters along the node axis, read at an index.

  An array of `E` node numbers (signed 32-bit words, as an `[E, 1]` column of start indices) selects rows of a
  node-indexed operand (`[N]` or `[N, C]`): a gather reads the operand at the number clamped into `[0, N − 1]`;
  an accumulating scatter adds update `e` to the operand's row whose number IS the word read signed, and drops it
  when that is no row. At the extended reals the accumulating scatter at row `n` is the operand's entry plus the sum
  over all `e` of the updates whose number is `n`.
-/
import Idealize.ShloMosaic.Lib.ValueIdx
import Idealize.ShloMosaic.PureOps.Ideal.Laws
import proofs.«101799_j10368051053156_2_alg».proof.Proof.LibScatter

noncomputable section

open scoped BigOperators

namespace Cert.Edges

open Idealize.ShloMosaic Idealize.ShloMosaic.ValueIdx

variable {α : Type}

/-! ## Gathers -/

/-- Rows of an `[N, C]` operand selected by `E` start indices. -/
abbrev rowsGather (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entries of an `[N]` operand selected by `E` start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A word read signed and clamped into `[0, N − 1]`: the row a gather reads. -/
def clampRow (N : Nat) (hN : 0 < N) (v : BitVec 32) : Fin N := ⟨min v.toInt.toNat (N - 1), by omega⟩

/-- Entry `(e, f)` of the gathered rows is the operand's entry `f` in the row start index `e` names. -/
theorem rowsGather_apply {N C E : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (f : Fin C) :
    Host.gather (rowsGather N C E wf) x idx (ix2 e f) = x (ix2 (clampRow N hN (idx (ix2 e 0))) f) := by
  unfold Host.gather
  congr 1
  funext a
  refine Fin.ext ?_
  have hsi : (rowsGather N C E wf).siIdx (ix2 e f) ⟨List.idxOf (0 : Fin 2) (rowsGather N C E wf).startIndexMap,
      List.idxOf_lt_length_iff.2 (List.mem_singleton.mpr rfl)⟩ = ix2 e 0 := by
    funext b; refine Fin.ext ?_
    match b with
    | ⟨0, _⟩ => rfl
    | ⟨1, _⟩ => rfl
  match a with
  | ⟨0, _⟩ =>
    show (rowsGather N C E wf).start (ix2 e f) idx 0 + (rowsGather N C E wf).batchCoord (ix2 e f) 0
      + (rowsGather N C E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N C E wf).startIndexMap from List.mem_singleton.mpr rfl), hsi]
    rfl
  | ⟨1, _⟩ =>
    show (rowsGather N C E wf).start (ix2 e f) idx 1 + (rowsGather N C E wf).batchCoord (ix2 e f) 1
      + (rowsGather N C E wf).offCoord (ix2 e f) 1 = f.val
    rw [GatherDims.batchCoord_eq_zero _ _ _ List.not_mem_nil]
    have hs : (rowsGather N C E wf).start (ix2 e f) idx 1 = 0 := by
      unfold GatherDims.start
      rw [dif_neg (show (1 : Fin 2) ∉ ([0] : List (Fin 2)) by decide)]
    rw [hs]
    simp only [Nat.add_zero, Nat.zero_add]
    rfl

/-- Entry `e` of the gathered vector is the operand's entry that start index `e` names. -/
theorem vecGather_apply {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : Fin E) :
    Host.gather (vecGather N E wf) x idx (ix1 e) = x (ix1 (clampRow N hN (idx (ix2 e 0)))) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Accumulating scatters -/

/-- Updates `[E, C]` added into rows of an `[N, C]` operand. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Updates `[E]` added into entries of an `[N]` operand. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `(e, f)` lands on `(n, g)` exactly when index `e`, read signed, is `n`, and `f = g`. -/
theorem rowsScatter_lands {N C E : Nat} (wf : ScatterDims.WF ⟨2, ![N, C]⟩ ⟨2, ![E, 1]⟩ ⟨2, ![E, C]⟩ [1] [0] [0] 1)
    (idx : IVec ⟨2, ![E, 1]⟩ 32) (e : Fin E) (f : Fin C) (n : Fin N) (g : Fin C) :
    (rowsScatter N C E wf).resultIdx? (ix2 e f) idx = some (ix2 n g) ↔ (idx (ix2 e 0)).toInt = (n.val : ℤ) ∧ f = g := by
  rw [ScatterDims.resultIdx?_eq_some_iff]
  have hsi : (rowsScatter N C E wf).siIdx (ix2 e f) ⟨List.idxOf (0 : Fin 2) (rowsScatter N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  have h0 : (rowsScatter N C E wf).start (ix2 e f) idx 0 = (idx (ix2 e 0)).toInt := by
    unfold ScatterDims.start
    rw [dif_pos (show (0 : Fin 2) ∈ (rowsScatter N C E wf).scatterDimsToOperandDims from List.mem_singleton.mpr rfl), hsi]
  have h1 : (rowsScatter N C E wf).start (ix2 e f) idx 1 = 0 := by
    unfold ScatterDims.start
    rw [dif_neg (show (1 : Fin 2) ∉ ([0] : List (Fin 2)) by decide)]
  have w0 : (rowsScatter N C E wf).window (ix2 e f) 0 = 0 := by
    unfold ScatterDims.window
    have hm : (0 : Fin 2) ∉ (rowsScatter N C E wf).sKept := by
      show (0 : Fin 2) ∉ (List.finRange 2).filter (fun a => a ∉ ([0] : List (Fin 2)))
      decide
    rw [dif_neg hm]
  have w1 : (rowsScatter N C E wf).window (ix2 e f) 1 = f.val := by
    unfold ScatterDims.window
    have hm : (1 : Fin 2) ∈ (rowsScatter N C E wf).sKept := by
      show (1 : Fin 2) ∈ (List.finRange 2).filter (fun a => a ∉ ([0] : List (Fin 2)))
      decide
    rw [dif_pos hm]
    rfl
  constructor
  · intro h
    have a0 : (n.val : ℤ) = (rowsScatter N C E wf).start (ix2 e f) idx 0 + ((rowsScatter N C E wf).window (ix2 e f) 0 : ℕ) := h 0
    have a1 : (g.val : ℤ) = (rowsScatter N C E wf).start (ix2 e f) idx 1 + ((rowsScatter N C E wf).window (ix2 e f) 1 : ℕ) := h 1
    rw [h0, w0] at a0
    rw [h1, w1] at a1
    exact ⟨by omega, Fin.ext (by omega)⟩
  · rintro ⟨hn, rfl⟩ a
    match a with
    | ⟨0, _⟩ =>
      show (n.val : ℤ) = (rowsScatter N C E wf).start (ix2 e f) idx 0 + ((rowsScatter N C E wf).window (ix2 e f) 0 : ℕ)
      rw [h0, w0, hn]; simp
    | ⟨1, _⟩ =>
      show (f.val : ℤ) = (rowsScatter N C E wf).start (ix2 e f) idx 1 + ((rowsScatter N C E wf).window (ix2 e f) 1 : ℕ)
      rw [h1, w1]; simp

/-- Update `e` lands on entry `n` exactly when index `e`, read signed, is `n`. -/
theorem vecScatter_lands {N E : Nat} (wf : ScatterDims.WF ⟨1, ![N]⟩ ⟨2, ![E, 1]⟩ ⟨1, ![E]⟩ [] [0] [0] 1)
    (idx : IVec ⟨2, ![E, 1]⟩ 32) (e : Fin E) (n : Fin N) :
    (vecScatter N E wf).resultIdx? (ix1 e) idx = some (ix1 n) ↔ (idx (ix2 e 0)).toInt = (n.val : ℤ) := by
  rw [ScatterDims.resultIdx?_eq_some_iff]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  have h0 : (vecScatter N E wf).start (ix1 e) idx 0 = (idx (ix2 e 0)).toInt := by
    unfold ScatterDims.start
    rw [dif_pos (show (0 : Fin 1) ∈ (vecScatter N E wf).scatterDimsToOperandDims from List.mem_singleton.mpr rfl), hsi]
  have w0 : (vecScatter N E wf).window (ix1 e) 0 = 0 := by
    unfold ScatterDims.window
    have hm : (0 : Fin 1) ∉ (vecScatter N E wf).sKept := by
      show (0 : Fin 1) ∉ (List.finRange 1).filter (fun a => a ∉ ([0] : List (Fin 1)))
      decide
    rw [dif_neg hm]
  constructor
  · intro h
    have a0 : (n.val : ℤ) = (vecScatter N E wf).start (ix1 e) idx 0 + ((vecScatter N E wf).window (ix1 e) 0 : ℕ) := h 0
    rw [h0, w0] at a0
    omega
  · intro hn a
    obtain rfl : a = 0 := Subsingleton.elim _ _
    show (n.val : ℤ) = (vecScatter N E wf).start (ix1 e) idx 0 + ((vecScatter N E wf).window (ix1 e) 0 : ℕ)
    rw [h0, w0, hn]; simp

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- The accumulating scatter of rows at the extended reals, at entry `(n, g)`: the operand's entry plus the sum
    over the updates `e` whose index is `n` of their entry `g`. -/
theorem rowsScatterAdd_apply {N C E : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ 32) (upd : FVec Ideal ⟨2, ![E, C]⟩ .f32) (n : Fin N) (g : Fin C) :
    Host.scatterAdd (F := Ideal) (rowsScatter N C E wf) x idx upd (ix2 n g)
      = x (ix2 n g) + ∑ e : Fin E, if (idx (ix2 e 0)).toInt = (n.val : ℤ) then upd (ix2 e g) else 0 := by
  show x (ix2 n g) + ∑ j ∈ Finset.univ.filter (fun j => (rowsScatter N C E wf).resultIdx? j idx = some (ix2 n g)), upd j = _
  congr 1
  rw [Finset.sum_filter, sum_idx2]
  refine Finset.sum_congr rfl fun e _ => ?_
  simp only [rowsScatter_lands]
  by_cases h : (idx (ix2 e 0)).toInt = (n.val : ℤ)
  · simp only [h, true_and, if_true]
    rw [Finset.sum_ite_eq' Finset.univ g (fun f => upd (ix2 e f))]
    simp
  · simp [h]

/-- The accumulating scatter of entries at the extended reals, at entry `n`: the operand's entry plus the sum
    of the updates `e` whose index is `n`. -/
theorem vecScatterAdd_apply {N E : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ 32) (upd : FVec Ideal ⟨1, ![E]⟩ .f32) (n : Fin N) :
    Host.scatterAdd (F := Ideal) (vecScatter N E wf) x idx upd (ix1 n)
      = x (ix1 n) + ∑ e : Fin E, if (idx (ix2 e 0)).toInt = (n.val : ℤ) then upd (ix1 e) else 0 := by
  show x (ix1 n) + ∑ j ∈ Finset.univ.filter (fun j => (vecScatter N E wf).resultIdx? j idx = some (ix1 n)), upd j = _
  congr 1
  rw [Finset.sum_filter, sum_idx1]
  refine Finset.sum_congr rfl fun e _ => ?_
  simp only [vecScatter_lands]

end Cert.Edges

end
-- ==== Proof.GcnGraph.lean ====
/-
  The graph data of the two programs, read off the index arrays.

  Both programs hold the messages' endpoints as two vectors of 850000 signed 32-bit words (800000 edges followed by one
  self-loop per node). A message's TARGET, for the accumulating scatter, is its word read as a signed integer (`tgt`): the
  message lands on node `n` exactly when that integer is `n`. A node READ through an indexing gather is the word with a
  negative number counted from the end (`wrapWord`: `v + 50000` when `v < 0`) and then clamped into `[0, 49999]` (`nodeOf`).
  For a message that lands on `n` the two readings agree (`nodeOf_of_tgt`).

  The node factor as both programs compute it — the reciprocal square root of the accumulated count of landing messages
  where that count is positive, else zero — read at a node is `Cert.Gcn.dinv` of the targets (`degVec_apply`, `dinvVec_apply`).
-/
import Idealize.ShloMosaic.Lib.ValueIdx
import Idealize.ShloMosaic.Lib.Pipeline.Value
import Idealize.ShloMosaic.Lib.IdealHost
import Idealize.ShloMosaic.PureOps.Ideal.Laws
import proofs.«101799_j10368051053156_2_alg».proof.Proof.LibEdges
import proofs.«101799_j10368051053156_2_alg».proof.Proof.GcnSpec

noncomputable section

open scoped BigOperators

namespace Cert.Gcn

open Idealize.ShloMosaic Idealize.ShloMosaic.ValueIdx Cert.Edges

/-- The signed target of message `e`. -/
def tgt (colv : IVec ⟨1, ![850000]⟩ 32) (e : Fin 850000) : ℤ := (colv (ix1 e)).toInt

/-- The word an indexing read uses: a negative number counts from the end of the 50000 nodes. -/
def wrapWord (v : BitVec 32) : BitVec 32 := Scalar.select (IntOp.cmpi .slt v 0#32) (IntOp.addi v 50000#32) v

/-- The node an indexing gather reads for message `e` of the vector `v`: wrapped, then clamped into the nodes. -/
def nodeOf (v : IVec ⟨1, ![850000]⟩ 32) (e : Fin 850000) : Fin 50000 :=
  clampRow 50000 (by decide) (wrapWord (v (ix1 e)))

theorem wrapWord_of_nonneg (v : BitVec 32) (h : 0 ≤ v.toInt) : wrapWord v = v := by
  unfold wrapWord IntOp.cmpi Scalar.select
  have hs : v.slt 0#32 = false := by
    rw [BitVec.slt]
    simp only [decide_eq_false_iff_not, not_lt]
    exact h
  rw [hs]
  simp

/-- A message that lands on node `n` reads node `n` through the gather. -/
theorem nodeOf_of_tgt (colv : IVec ⟨1, ![850000]⟩ 32) (e : Fin 850000) (n : Fin 50000) (h : tgt colv e = (n.val : ℤ)) :
    nodeOf colv e = n := by
  unfold tgt at h
  unfold nodeOf
  rw [wrapWord_of_nonneg _ (by omega)]
  unfold clampRow
  apply Fin.ext
  show min (colv (ix1 e)).toInt.toNat (50000 - 1) = n.val
  have := n.isLt
  omega

/-- A scalar spread over a vector, read at an entry. -/
theorem splat1_apply {α : Type} {M : ℕ} (d0 : Fin 0 → Fin 1) (h0 : Shape.BroadcastsInDim ⟨0, ![]⟩ ⟨1, ![M]⟩ d0)
    (z : (⟨0, ![]⟩ : Shape).Idx → α) (i : (⟨1, ![M]⟩ : Shape).Idx) :
    broadcastInDim ⟨1, ![M]⟩ d0 h0 z i = z ix0 :=
  broadcastInDim_apply d0 h0 z i ix0 (fun a => a.elim0)

/-- A vector laid out as a one-column matrix, read at `(e, 0)`. -/
theorem column_apply {α : Type} (d1 : Fin 1 → Fin 2) (hc : Shape.BroadcastsInDim ⟨1, ![850000]⟩ ⟨2, ![850000, 1]⟩ d1)
    (hd1 : d1 0 = 0) (v : (⟨1, ![850000]⟩ : Shape).Idx → α) (e : Fin 850000) :
    broadcastInDim ⟨2, ![850000, 1]⟩ d1 hc v (ix2 e 0) = v (ix1 e) := by
  refine broadcastInDim_apply d1 hc v (ix2 e 0) (ix1 e) ?_
  intro a
  match a with
  | ⟨0, _⟩ =>
    show e.val = if (850000 : ℕ) = 1 then 0 else ((ix2 e 0 : (⟨2, ![850000, 1]⟩ : Shape).Idx) (d1 0)).val
    rw [hd1, if_neg (by decide)]

/-- The index column an indexing gather is given — negative numbers counted from the end — read at message `e`. -/
theorem wrapCol_apply (d0 : Fin 0 → Fin 1) (hz : Shape.BroadcastsInDim ⟨0, ![]⟩ ⟨1, ![850000]⟩ d0)
    (d1 : Fin 1 → Fin 2) (hc : Shape.BroadcastsInDim ⟨1, ![850000]⟩ ⟨2, ![850000, 1]⟩ d1) (hd1 : d1 0 = 0)
    (v : IVec ⟨1, ![850000]⟩ 32) (e : Fin 850000) :
    broadcastInDim ⟨2, ![850000, 1]⟩ d1 hc
        (select (cmpi .slt v (broadcastInDim ⟨1, ![850000]⟩ d0 hz (constantI ⟨0, ![]⟩ 32 0#32)))
          (addi v (broadcastInDim ⟨1, ![850000]⟩ d0 hz (constantI ⟨0, ![]⟩ 32 50000#32))) v) (ix2 e 0)
      = wrapWord (v (ix1 e)) := by
  rw [column_apply d1 hc hd1]
  show Scalar.select (IntOp.cmpi .slt (v (ix1 e)) (broadcastInDim ⟨1, ![850000]⟩ d0 hz (constantI ⟨0, ![]⟩ 32 0#32) (ix1 e)))
      (IntOp.addi (v (ix1 e)) (broadcastInDim ⟨1, ![850000]⟩ d0 hz (constantI ⟨0, ![]⟩ 32 50000#32) (ix1 e))) (v (ix1 e)) = _
  rw [splat1_apply d0 hz, splat1_apply d0 hz]
  rfl

/-- The accumulated count of landing messages, as both programs compute it, at node `n`. -/
theorem degVec_apply (sd : ScatterDims ⟨1, ![50000]⟩ ⟨2, ![850000, 1]⟩ ⟨1, ![850000]⟩)
    (wf : ScatterDims.WF ⟨1, ![50000]⟩ ⟨2, ![850000, 1]⟩ ⟨1, ![850000]⟩ [] [0] [0] 1) (hsd : sd = vecScatter 50000 850000 wf)
    (d0 : Fin 0 → Fin 1) (hN : Shape.BroadcastsInDim ⟨0, ![]⟩ ⟨1, ![50000]⟩ d0)
    (hE : Shape.BroadcastsInDim ⟨0, ![]⟩ ⟨1, ![850000]⟩ d0)
    (d1 : Fin 1 → Fin 2) (hc : Shape.BroadcastsInDim ⟨1, ![850000]⟩ ⟨2, ![850000, 1]⟩ d1) (hd1 : d1 0 = 0)
    (colv : IVec ⟨1, ![850000]⟩ 32) (n : Fin 50000) :
    Host.scatterAdd (F := Ideal) sd (broadcastInDim ⟨1, ![50000]⟩ d0 hN (constant (F := Ideal) ⟨0, ![]⟩ .f32 0x00000000#32))
        (broadcastInDim ⟨2, ![850000, 1]⟩ d1 hc colv)
        (broadcastInDim ⟨1, ![850000]⟩ d0 hE (constant (F := Ideal) ⟨0, ![]⟩ .f32 0x3F800000#32)) (ix1 n)
      = deg (tgt colv) n := by
  subst hsd
  rw [vecScatterAdd_apply, splat1_apply d0 hN]
  unfold deg landed tgt
  refine congrArg₂ (· + ·) Ideal.ofBits_zero_f32 (Finset.sum_congr rfl fun e _ => ?_)
  rw [column_apply d1 hc hd1, splat1_apply d0 hE]
  exact if_congr Iff.rfl Ideal.ofBits_one_f32 rfl

/-- The comparison "positive" selecting between two values. -/
theorem select_ogt_zero (a x y : EReal) :
    Scalar.select (Ideal.cmp .ogt a 0) x y = if 0 < a then x else y := by
  unfold Scalar.select Ideal.cmp
  by_cases h : (0 : EReal) < a
  · simp [h]
  · simp [h]

/-- The node factor, as both programs compute it from a count vector `dg`, at node `n`. -/
theorem dinvVec_apply (d0 : Fin 0 → Fin 1) (hN : Shape.BroadcastsInDim ⟨0, ![]⟩ ⟨1, ![50000]⟩ d0)
    (colv : IVec ⟨1, ![850000]⟩ 32) (dg : FVec Ideal ⟨1, ![50000]⟩ .f32) (hdg : ∀ n, dg (ix1 n) = deg (tgt colv) n) (n : Fin 50000) :
    select (cmpf (F := Ideal) .ogt dg (broadcastInDim ⟨1, ![50000]⟩ d0 hN (constant (F := Ideal) ⟨0, ![]⟩ .f32 0x00000000#32)))
        (Host.rsqrt (F := Ideal) dg)
        (broadcastInDim ⟨1, ![50000]⟩ d0 hN (constant (F := Ideal) ⟨0, ![]⟩ .f32 0x00000000#32)) (ix1 n)
      = dinv (tgt colv) n := by
  show Scalar.select (Ideal.cmp .ogt (dg (ix1 n))
        (broadcastInDim ⟨1, ![50000]⟩ d0 hN (constant (F := Ideal) ⟨0, ![]⟩ .f32 0x00000000#32) (ix1 n)))
      (Ideal.rsqrt (dg (ix1 n)))
      (broadcastInDim ⟨1, ![50000]⟩ d0 hN (constant (F := Ideal) ⟨0, ![]⟩ .f32 0x00000000#32) (ix1 n)) = _
  rw [splat1_apply d0 hN, hdg n]
  show Scalar.select (Ideal.cmp .ogt (deg (tgt colv) n) (Ideal.ofBits .f32 0x00000000#32)) _ (Ideal.ofBits .f32 0x00000000#32) = _
  rw [Ideal.ofBits_zero_f32, select_ogt_zero]
  rfl

end Cert.Gcn

end
-- ==== Proof.KernelHost.lean ====
/-
  The host side of the idealized kernel: what each buffer holds at the boundaries between @main's segments.

  The index vectors (`rowVec`, `colVec`: the 800000 edges of a row of the edge array followed by the 50000 self-loops),
  the count of messages landing on each node (`degVec`) and the node factor (`dinvVec`) are computed once, before the first
  region, from the edge array alone; no later stretch or region writes them, nor the transposed weights and the biases, so
  at every later boundary they are still those functions of the launch memory (the lemmas `W3_…` … `W8_…`).
-/
import proofs.«101799_j10368051053156_2_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.ShloMosaic.StableHlo Idealize.SL.Sem

/-- The messages' sources: row 0 of the edge array, then one self-loop per node. -/
def rowVec (ei : IVec S2x800000 32) : IVec S850000 32 :=
  concatenate S850000 0 [⟨S800000, shapeCast _ (extractStridedSlice S1x800000 ![0, 0] ei Gen.slices_S2x800000_S1x800000_0_0) Gen.shapeCasts_S1x800000_S800000⟩, ⟨S50000, iotaInDim S50000 32 0⟩] Gen.concatenates_S800000_S50000_S850000_d0

/-- The messages' targets: row 1 of the edge array, then one self-loop per node. -/
def colVec (ei : IVec S2x800000 32) : IVec S850000 32 :=
  concatenate S850000 0 [⟨S800000, shapeCast _ (extractStridedSlice S1x800000 ![1, 0] ei Gen.slices_S2x800000_S1x800000_1_0) Gen.shapeCasts_S1x800000_S800000⟩, ⟨S50000, iotaInDim S50000 32 0⟩] Gen.concatenates_S800000_S50000_S850000_d0

/-- The count of messages landing on each node: ones added into a zero vector at the targets. -/
def degVec (ei : IVec S2x800000 32) : FVec Ideal S50000 .f32 :=
  Host.scatterAdd scatter_S50000_S850000x1_S850000_n_0_0_1
    (broadcastInDim S50000 ![] Gen.bcast_S_S50000 (constant S_ .f32 0x00000000#32))
    (broadcastInDim S850000x1 ![0] Gen.bcast_S850000_S850000x1_0 (colVec ei))
    (broadcastInDim S850000 ![] Gen.bcast_S_S850000 (constant S_ .f32 0x3F800000#32))

/-- The node factor: the reciprocal square root of the count where it is positive, else zero. -/
def dinvVec (ei : IVec S2x800000 32) : FVec Ideal S50000 .f32 :=
  select (cmpf .ogt (degVec ei) (broadcastInDim S50000 ![] Gen.bcast_S_S50000 (constant S_ .f32 0x00000000#32)))
    (Host.rsqrt (degVec ei)) (broadcastInDim S50000 ![] Gen.bcast_S_S50000 (constant S_ .f32 0x00000000#32))

variable (m : (ℓ : Loc nD τ sig) → Buf (Elt Ideal) ℓ) (ρ : Dev nD → PrngReg)

/-! ## What the first region is entered with, and what is computed before it -/

theorem W3_v3 (c : Dev nD) : W3 m ρ c (Proc.devRef .tc main_v3) = rowVec (m ((c : Thread nD τ).loc main_arg1)) := by
  show StableHlo.after hostOps0_2 (StableHlo.after hostOps0_1 (StableHlo.after hostOps0 (W0 m ρ c))) (Proc.devRef .tc main_v3) = _
  after_results <;> rfl
theorem W3_v6 (c : Dev nD) : W3 m ρ c (Proc.devRef .tc main_v6) = colVec (m ((c : Thread nD τ).loc main_arg1)) := by
  show StableHlo.after hostOps0_2 (StableHlo.after hostOps0_1 (StableHlo.after hostOps0 (W0 m ρ c))) (Proc.devRef .tc main_v6) = _
  after_results <;> rfl
theorem W3_v16 (c : Dev nD) : W3 m ρ c (Proc.devRef .tc main_v16) = transpose S128x128 [1, 0] (m ((c : Thread nD τ).loc main_arg4)) Gen.transposes_S128x128_S128x128_1_0 := by
  show StableHlo.after hostOps0_2 (StableHlo.after hostOps0_1 (StableHlo.after hostOps0 (W0 m ρ c))) (Proc.devRef .tc main_v16) = _
  after_results <;> rfl
theorem W3_v17 (c : Dev nD) : W3 m ρ c (Proc.devRef .tc main_v17) = transpose S128x64 [1, 0] (m ((c : Thread nD τ).loc main_arg6)) Gen.transposes_S64x128_S128x64_1_0 := by
  show StableHlo.after hostOps0_2 (StableHlo.after hostOps0_1 (StableHlo.after hostOps0 (W0 m ρ c))) (Proc.devRef .tc main_v17) = _
  after_results <;> rfl
theorem W3_a3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results <;> rfl
theorem W3_a5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results <;> rfl
theorem W3_a7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results <;> rfl
theorem W3_a0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results <;> rfl
theorem W3_v15 (c : Dev nD) : W3 m ρ c (Proc.devRef .tc main_v15) = transpose S128x128 [1, 0] (m ((c : Thread nD τ).loc main_arg2)) Gen.transposes_S128x128_S128x128_1_0 := by
  show StableHlo.after hostOps0_2 (StableHlo.after hostOps0_1 (StableHlo.after hostOps0 (W0 m ρ c))) (Proc.devRef .tc main_v15) = _
  after_results <;> rfl

theorem W1_v12 (c : Dev nD) : W1 m ρ c (Proc.devRef .tc main_v12) = cmpf .ogt (degVec (m ((c : Thread nD τ).loc main_arg1))) (broadcastInDim S50000 ![] Gen.bcast_S_S50000 (constant S_ .f32 0x00000000#32)) := by
  show StableHlo.after hostOps0 (W0 m ρ c) (Proc.devRef .tc main_v12) = _
  after_results <;> rfl
theorem W1_v13 (c : Dev nD) : W1 m ρ c (Proc.devRef .tc main_v13) = Host.rsqrt (degVec (m ((c : Thread nD τ).loc main_arg1))) := by
  show StableHlo.after hostOps0 (W0 m ρ c) (Proc.devRef .tc main_v13) = _
  after_results <;> rfl
theorem W1_cst2 (c : Dev nD) : W1 m ρ c (Proc.devRef .tc main_cst_2) = (constant (F := Ideal) S_ .f32 0x00000000#32 : FVec Ideal S_ .f32) := by
  show StableHlo.after hostOps0 (W0 m ρ c) (Proc.devRef .tc main_cst_2) = _
  after_results <;> rfl
set_option maxHeartbeats 1000000 in
theorem W2_v14 (c : Dev nD) : W2 m ρ c (Proc.devRef .tc main_v14) = dinvVec (m ((c : Thread nD τ).loc main_arg1)) := by
  have h12 := W1_v12 m ρ c
  have h13 := W1_v13 m ρ c
  have hc := W1_cst2 m ρ c
  show StableHlo.after hostOps0_1 (W1 m ρ c) (Proc.devRef .tc main_v14) = _
  generalize W1 m ρ c = W at h12 h13 hc ⊢
  after_results
  show select (W (Proc.devRef .tc main_v12)) (W (Proc.devRef .tc main_v13))
    (broadcastInDim S50000 ![] Gen.bcast_S_S50000 (W (Proc.devRef .tc main_cst_2))) = _
  rw [h12, h13, hc]
  rfl
set_option maxHeartbeats 1000000 in
theorem W3_v14 (c : Dev nD) : W3 m ρ c (Proc.devRef .tc main_v14) = dinvVec (m ((c : Thread nD τ).loc main_arg1)) := by
  have h14 := W2_v14 m ρ c
  show StableHlo.after hostOps0_2 (W2 m ρ c) (Proc.devRef .tc main_v14) = _
  generalize W2 m ρ c = W at h14 ⊢
  after_results
  exact h14
set_option maxHeartbeats 1000000 in
theorem W3_v18 (c : Dev nD) : W3 m ρ c (Proc.devRef .tc main_v18) = shapeCast S50000x1 (dinvVec (m ((c : Thread nD τ).loc main_arg1))) Gen.shapeCasts_S50000_S50000x1 := by
  have h14 := W2_v14 m ρ c
  show StableHlo.after hostOps0_2 (W2 m ρ c) (Proc.devRef .tc main_v18) = _
  generalize W2 m ρ c = W at h14 ⊢
  after_results
  rw [h14]
  rfl

/-! ## What is carried unchanged from boundary to boundary -/

theorem W4_v3 (c : Dev nD) : W4 m ρ c (Proc.devRef .tc main_v3) = rowVec (m ((c : Thread nD τ).loc main_arg1)) :=
  (W4_of_ne m ρ c main_v3 (by decide)).trans (W3_v3 m ρ c)
theorem W4_v6 (c : Dev nD) : W4 m ρ c (Proc.devRef .tc main_v6) = colVec (m ((c : Thread nD τ).loc main_arg1)) :=
  (W4_of_ne m ρ c main_v6 (by decide)).trans (W3_v6 m ρ c)
theorem W4_v14 (c : Dev nD) : W4 m ρ c (Proc.devRef .tc main_v14) = dinvVec (m ((c : Thread nD τ).loc main_arg1)) :=
  (W4_of_ne m ρ c main_v14 (by decide)).trans (W3_v14 m ρ c)
theorem W4_v16 (c : Dev nD) : W4 m ρ c (Proc.devRef .tc main_v16) = transpose S128x128 [1, 0] (m ((c : Thread nD τ).loc main_arg4)) Gen.transposes_S128x128_S128x128_1_0 :=
  (W4_of_ne m ρ c main_v16 (by decide)).trans (W3_v16 m ρ c)
theorem W4_v17 (c : Dev nD) : W4 m ρ c (Proc.devRef .tc main_v17) = transpose S128x64 [1, 0] (m ((c : Thread nD τ).loc main_arg6)) Gen.transposes_S64x128_S128x64_1_0 :=
  (W4_of_ne m ρ c main_v17 (by decide)).trans (W3_v17 m ρ c)
theorem W4_a3 (c : Dev nD) : W4 m ρ c (Proc.devRef .tc main_arg3) = m ((c : Thread nD τ).loc main_arg3) :=
  (W4_of_ne m ρ c main_arg3 (by decide)).trans (W3_a3 m ρ c)
theorem W4_a5 (c : Dev nD) : W4 m ρ c (Proc.devRef .tc main_arg5) = m ((c : Thread nD τ).loc main_arg5) :=
  (W4_of_ne m ρ c main_arg5 (by decide)).trans (W3_a5 m ρ c)
theorem W4_a7 (c : Dev nD) : W4 m ρ c (Proc.devRef .tc main_arg7) = m ((c : Thread nD τ).loc main_arg7) :=
  (W4_of_ne m ρ c main_arg7 (by decide)).trans (W3_a7 m ρ c)
theorem W5_v3 (c : Dev nD) : W5 m ρ c (Proc.devRef .tc main_v3) = rowVec (m ((c : Thread nD τ).loc main_arg1)) := by
  show StableHlo.after hostOps1 (W4 m ρ c) (Proc.devRef .tc main_v3) = _
  after_results
  exact W4_v3 m ρ c
theorem W5_v6 (c : Dev nD) : W5 m ρ c (Proc.devRef .tc main_v6) = colVec (m ((c : Thread nD τ).loc main_arg1)) := by
  show StableHlo.after hostOps1 (W4 m ρ c) (Proc.devRef .tc main_v6) = _
  after_results
  exact W4_v6 m ρ c
theorem W5_v14 (c : Dev nD) : W5 m ρ c (Proc.devRef .tc main_v14) = dinvVec (m ((c : Thread nD τ).loc main_arg1)) := by
  show StableHlo.after hostOps1 (W4 m ρ c) (Proc.devRef .tc main_v14) = _
  after_results
  exact W4_v14 m ρ c
theorem W5_v16 (c : Dev nD) : W5 m ρ c (Proc.devRef .tc main_v16) = transpose S128x128 [1, 0] (m ((c : Thread nD τ).loc main_arg4)) Gen.transposes_S128x128_S128x128_1_0 := by
  show StableHlo.after hostOps1 (W4 m ρ c) (Proc.devRef .tc main_v16) = _
  after_results
  exact W4_v16 m ρ c
theorem W5_v17 (c : Dev nD) : W5 m ρ c (Proc.devRef .tc main_v17) = transpose S128x64 [1, 0] (m ((c : Thread nD τ).loc main_arg6)) Gen.transposes_S64x128_S128x64_1_0 := by
  show StableHlo.after hostOps1 (W4 m ρ c) (Proc.devRef .tc main_v17) = _
  after_results
  exact W4_v17 m ρ c
theorem W5_a5 (c : Dev nD) : W5 m ρ c (Proc.devRef .tc main_arg5) = m ((c : Thread nD τ).loc main_arg5) := by
  show StableHlo.after hostOps1 (W4 m ρ c) (Proc.devRef .tc main_arg5) = _
  after_results
  exact W4_a5 m ρ c
theorem W5_a7 (c : Dev nD) : W5 m ρ c (Proc.devRef .tc main_arg7) = m ((c : Thread nD τ).loc main_arg7) := by
  show StableHlo.after hostOps1 (W4 m ρ c) (Proc.devRef .tc main_arg7) = _
  after_results
  exact W4_a7 m ρ c
theorem W6_v3 (c : Dev nD) : W6 m ρ c (Proc.devRef .tc main_v3) = rowVec (m ((c : Thread nD τ).loc main_arg1)) :=
  (W6_of_ne m ρ c main_v3 (by decide)).trans (W5_v3 m ρ c)
theorem W6_v6 (c : Dev nD) : W6 m ρ c (Proc.devRef .tc main_v6) = colVec (m ((c : Thread nD τ).loc main_arg1)) :=
  (W6_of_ne m ρ c main_v6 (by decide)).trans (W5_v6 m ρ c)
theorem W6_v14 (c : Dev nD) : W6 m ρ c (Proc.devRef .tc main_v14) = dinvVec (m ((c : Thread nD τ).loc main_arg1)) :=
  (W6_of_ne m ρ c main_v14 (by decide)).trans (W5_v14 m ρ c)
theorem W6_v17 (c : Dev nD) : W6 m ρ c (Proc.devRef .tc main_v17) = transpose S128x64 [1, 0] (m ((c : Thread nD τ).loc main_arg6)) Gen.transposes_S64x128_S128x64_1_0 :=
  (W6_of_ne m ρ c main_v17 (by decide)).trans (W5_v17 m ρ c)
theorem W6_a5 (c : Dev nD) : W6 m ρ c (Proc.devRef .tc main_arg5) = m ((c : Thread nD τ).loc main_arg5) :=
  (W6_of_ne m ρ c main_arg5 (by decide)).trans (W5_a5 m ρ c)
theorem W6_a7 (c : Dev nD) : W6 m ρ c (Proc.devRef .tc main_arg7) = m ((c : Thread nD τ).loc main_arg7) :=
  (W6_of_ne m ρ c main_arg7 (by decide)).trans (W5_a7 m ρ c)
theorem W7_v3 (c : Dev nD) : W7 m ρ c (Proc.devRef .tc main_v3) = rowVec (m ((c : Thread nD τ).loc main_arg1)) := by
  show StableHlo.after hostOps2 (W6 m ρ c) (Proc.devRef .tc main_v3) = _
  after_results
  exact W6_v3 m ρ c
theorem W7_v6 (c : Dev nD) : W7 m ρ c (Proc.devRef .tc main_v6) = colVec (m ((c : Thread nD τ).loc main_arg1)) := by
  show StableHlo.after hostOps2 (W6 m ρ c) (Proc.devRef .tc main_v6) = _
  after_results
  exact W6_v6 m ρ c
theorem W7_v14 (c : Dev nD) : W7 m ρ c (Proc.devRef .tc main_v14) = dinvVec (m ((c : Thread nD τ).loc main_arg1)) := by
  show StableHlo.after hostOps2 (W6 m ρ c) (Proc.devRef .tc main_v14) = _
  after_results
  exact W6_v14 m ρ c
theorem W7_v17 (c : Dev nD) : W7 m ρ c (Proc.devRef .tc main_v17) = transpose S128x64 [1, 0] (m ((c : Thread nD τ).loc main_arg6)) Gen.transposes_S64x128_S128x64_1_0 := by
  show StableHlo.after hostOps2 (W6 m ρ c) (Proc.devRef .tc main_v17) = _
  after_results
  exact W6_v17 m ρ c
theorem W7_a7 (c : Dev nD) : W7 m ρ c (Proc.devRef .tc main_arg7) = m ((c : Thread nD τ).loc main_arg7) := by
  show StableHlo.after hostOps2 (W6 m ρ c) (Proc.devRef .tc main_arg7) = _
  after_results
  exact W6_a7 m ρ c
theorem W8_v3 (c : Dev nD) : W8 m ρ c (Proc.devRef .tc main_v3) = rowVec (m ((c : Thread nD τ).loc main_arg1)) :=
  (W8_of_ne m ρ c main_v3 (by decide)).trans (W7_v3 m ρ c)
theorem W8_v6 (c : Dev nD) : W8 m ρ c (Proc.devRef .tc main_v6) = colVec (m ((c : Thread nD τ).loc main_arg1)) :=
  (W8_of_ne m ρ c main_v6 (by decide)).trans (W7_v6 m ρ c)
theorem W8_v14 (c : Dev nD) : W8 m ρ c (Proc.devRef .tc main_v14) = dinvVec (m ((c : Thread nD τ).loc main_arg1)) :=
  (W8_of_ne m ρ c main_v14 (by decide)).trans (W7_v14 m ρ c)
theorem W8_a7 (c : Dev nD) : W8 m ρ c (Proc.devRef .tc main_arg7) = m ((c : Thread nD τ).loc main_arg7) :=
  (W8_of_ne m ρ c main_arg7 (by decide)).trans (W7_a7 m ρ c)

/-! ## What each later stretch computes -/

set_option maxHeartbeats 2000000 in
/-- The stretch after region 0: the rows of what the region left, gathered at the messages' sources and accumulated at their targets. -/
theorem W5_v30 (c : Dev nD) : W5 m ρ c (Proc.devRef .tc main_v30) =
      (Host.scatterAdd (F := Ideal) scatter_S50000x128_S850000x1_S850000x128_1_0_0_1
        (broadcastInDim S50000x128 ![] Gen.bcast_S_S50000x128 (constant S_ .f32 0x00000000#32))
        (broadcastInDim S850000x1 ![0] Gen.bcast_S850000_S850000x1_0 (colVec (m ((c : Thread nD τ).loc main_arg1))))
        (extf (F := Ideal) .f32 (Host.gather gather_S50000x128_S850000x1_S850000x128_1_0_n_n_0_1_1128 (W4 m ρ c (Proc.devRef .tc main_v19))
          (broadcastInDim S850000x1 ![0] Gen.bcast_S850000_S850000x1_0
            (select (cmpi .slt (rowVec (m ((c : Thread nD τ).loc main_arg1))) (broadcastInDim S850000 ![] Gen.bcast_S_S850000 (constantI S_ 32 0#32)))
              (addi (rowVec (m ((c : Thread nD τ).loc main_arg1))) (broadcastInDim S850000 ![] Gen.bcast_S_S850000 (constantI S_ 32 50000#32))) (rowVec (m ((c : Thread nD τ).loc main_arg1)))))) Gen.bitsLt_bf16_f32) : FVec Ideal S50000x128 .f32) := by
  have h3 := W4_v3 m ρ c
  have h6 := W4_v6 m ρ c
  show StableHlo.after hostOps1 (W4 m ρ c) (Proc.devRef .tc main_v30) = _
  generalize W4 m ρ c = W at h3 h6 ⊢
  after_results
  rw [h3, h6]
theorem W5_v31 (c : Dev nD) : W5 m ρ c (Proc.devRef .tc main_v31) = shapeCast S50000x1 (dinvVec (m ((c : Thread nD τ).loc main_arg1))) Gen.shapeCasts_S50000_S50000x1 := by
  have h14 := W4_v14 m ρ c
  show StableHlo.after hostOps1 (W4 m ρ c) (Proc.devRef .tc main_v31) = _
  generalize W4 m ρ c = W at h14 ⊢
  after_results
  rw [h14]
  rfl
theorem W5_v32 (c : Dev nD) : W5 m ρ c (Proc.devRef .tc main_v32) = shapeCast S1x128 (m ((c : Thread nD τ).loc main_arg3)) Gen.shapeCasts_S128_S1x128 := by
  have ha := W4_a3 m ρ c
  show StableHlo.after hostOps1 (W4 m ρ c) (Proc.devRef .tc main_v32) = _
  generalize W4 m ρ c = W at ha ⊢
  after_results
  rw [ha]
  rfl

set_option maxHeartbeats 2000000 in
/-- The stretch after region 1: the rows of what the region left, gathered at the messages' sources and accumulated at their targets. -/
theorem W7_v44 (c : Dev nD) : W7 m ρ c (Proc.devRef .tc main_v44) =
      (Host.scatterAdd (F := Ideal) scatter_S50000x128_S850000x1_S850000x128_1_0_0_1
        (broadcastInDim S50000x128 ![] Gen.bcast_S_S50000x128 (constant S_ .f32 0x00000000#32))
        (broadcastInDim S850000x1 ![0] Gen.bcast_S850000_S850000x1_0 (colVec (m ((c : Thread nD τ).loc main_arg1))))
        (extf (F := Ideal) .f32 (Host.gather gather_S50000x128_S850000x1_S850000x128_1_0_n_n_0_1_1128 (W6 m ρ c (Proc.devRef .tc main_v33))
          (broadcastInDim S850000x1 ![0] Gen.bcast_S850000_S850000x1_0
            (select (cmpi .slt (rowVec (m ((c : Thread nD τ).loc main_arg1))) (broadcastInDim S850000 ![] Gen.bcast_S_S850000 (constantI S_ 32 0#32)))
              (addi (rowVec (m ((c : Thread nD τ).loc main_arg1))) (broadcastInDim S850000 ![] Gen.bcast_S_S850000 (constantI S_ 32 50000#32))) (rowVec (m ((c : Thread nD τ).loc main_arg1)))))) Gen.bitsLt_bf16_f32) : FVec Ideal S50000x128 .f32) := by
  have h3 := W6_v3 m ρ c
  have h6 := W6_v6 m ρ c
  show StableHlo.after hostOps2 (W6 m ρ c) (Proc.devRef .tc main_v44) = _
  generalize W6 m ρ c = W at h3 h6 ⊢
  after_results
  rw [h3, h6]
theorem W7_v45 (c : Dev nD) : W7 m ρ c (Proc.devRef .tc main_v45) = shapeCast S50000x1 (dinvVec (m ((c : Thread nD τ).loc main_arg1))) Gen.shapeCasts_S50000_S50000x1 := by
  have h14 := W6_v14 m ρ c
  show StableHlo.after hostOps2 (W6 m ρ c) (Proc.devRef .tc main_v45) = _
  generalize W6 m ρ c = W at h14 ⊢
  after_results
  rw [h14]
  rfl
theorem W7_v46 (c : Dev nD) : W7 m ρ c (Proc.devRef .tc main_v46) = shapeCast S1x128 (m ((c : Thread nD τ).loc main_arg5)) Gen.shapeCasts_S128_S1x128 := by
  have ha := W6_a5 m ρ c
  show StableHlo.after hostOps2 (W6 m ρ c) (Proc.devRef .tc main_v46) = _
  generalize W6 m ρ c = W at ha ⊢
  after_results
  rw [ha]
  rfl

set_option maxHeartbeats 2000000 in
/-- The stretch after region 2: the rows of what the region left, gathered at the messages' sources and accumulated at their targets. -/
theorem W9_v58 (c : Dev nD) : W9 m ρ c (Proc.devRef .tc main_v58) =
      (Host.scatterAdd (F := Ideal) scatter_S50000x64_S850000x1_S850000x64_1_0_0_1
        (broadcastInDim S50000x64 ![] Gen.bcast_S_S50000x64 (constant S_ .f32 0x00000000#32))
        (broadcastInDim S850000x1 ![0] Gen.bcast_S850000_S850000x1_0 (colVec (m ((c : Thread nD τ).loc main_arg1))))
        (extf (F := Ideal) .f32 (Host.gather gather_S50000x64_S850000x1_S850000x64_1_0_n_n_0_1_164 (W8 m ρ c (Proc.devRef .tc main_v47))
          (broadcastInDim S850000x1 ![0] Gen.bcast_S850000_S850000x1_0
            (select (cmpi .slt (rowVec (m ((c : Thread nD τ).loc main_arg1))) (broadcastInDim S850000 ![] Gen.bcast_S_S850000 (constantI S_ 32 0#32)))
              (addi (rowVec (m ((c : Thread nD τ).loc main_arg1))) (broadcastInDim S850000 ![] Gen.bcast_S_S850000 (constantI S_ 32 50000#32))) (rowVec (m ((c : Thread nD τ).loc main_arg1)))))) Gen.bitsLt_bf16_f32) : FVec Ideal S50000x64 .f32) := by
  have h3 := W8_v3 m ρ c
  have h6 := W8_v6 m ρ c
  show StableHlo.after hostOps3 (W8 m ρ c) (Proc.devRef .tc main_v58) = _
  generalize W8 m ρ c = W at h3 h6 ⊢
  after_results
  rw [h3, h6]
theorem W9_v59 (c : Dev nD) : W9 m ρ c (Proc.devRef .tc main_v59) = shapeCast S50000x1 (dinvVec (m ((c : Thread nD τ).loc main_arg1))) Gen.shapeCasts_S50000_S50000x1 := by
  have h14 := W8_v14 m ρ c
  show StableHlo.after hostOps3 (W8 m ρ c) (Proc.devRef .tc main_v59) = _
  generalize W8 m ρ c = W at h14 ⊢
  after_results
  rw [h14]
  rfl
theorem W9_v60 (c : Dev nD) : W9 m ρ c (Proc.devRef .tc main_v60) = shapeCast S1x64 (m ((c : Thread nD τ).loc main_arg7)) Gen.shapeCasts_S64_S1x64 := by
  have ha := W8_a7 m ρ c
  show StableHlo.after hostOps3 (W8 m ρ c) (Proc.devRef .tc main_v60) = _
  generalize W8 m ρ c = W at ha ⊢
  after_results
  rw [ha]
  rfl

end Cert.KernelIdeal.HostValue

end
-- ==== Proof.Region0.lean ====
/- The first layer's dense product, row-blocked. The region's output array is, entry by entry,
   out[n, k] = d[n] · Σ_j x[n, j] · w[j, k]: row n of the [50000,128] operand times the [128,128] weight matrix, scaled by
   the row's factor d[n]. The grid has ten points; a block is 5000 consecutive rows (point t holds rows 5000·t … 5000·t+4999)
   of the operand, of the column of row factors and of the output, while the weight matrix is whole at every point. An entry
   of the output depends on its own row of the operand, its row's factor and its column of the weights only, so each block
   written back is a block of one function of the input arrays, and the ten blocks cover the array. -/
import proofs.«101799_j10368051053156_2_alg».proof.Proof.Gen.KernelIdeal.Frame
import Idealize.ShloMosaic.Lib.Pipeline.Value
import Idealize.ShloMosaic.Lib.ValueIdx
import Idealize.ShloMosaic.PureOps.Ideal.Laws
set_option maxRecDepth 16384

noncomputable section

namespace Cert.KernelIdeal.Region0

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, as a constant function. -/
theorem zeros2 : (![0, 0] : Fin 2 → Nat) = fun _ => 0 := funext fun a => by fin_cases a <;> rfl

/-- The operand positions of the block product at output position `i` and contraction position `q`: the left operand is
    read in row `i 0` at column `q`, the right operand in row `q` at column `i 1`. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at row `r` and column `k`: the sum over the 128 contracted
    positions of the products of the left operand's row `r` and the right operand's column `k`. -/
theorem matmul_zero_apply (A : FVec Ideal S5000x128 .bf16) (W : FVec Ideal S128x128 .bf16) (r : Fin 5000) (k : Fin 128) :
    matmul dot_S5000x128_S128x128_S5000x128_1_0_0_1_n_n none A W (constant (F := Ideal) S5000x128 .f32 0x00000000#32) (ix2 r k)
      = ∑ j : Fin 128, A (ix2 r j) * W (ix2 j k) := by
  show FloatOps.matmul dot_S5000x128_S128x128_S5000x128_1_0_0_1_n_n none A W (constant (F := Ideal) S5000x128 .f32 0x00000000#32) (ix2 r k) = _
  rw [Ideal.matmul_constant_zero_apply, ← Equiv.sum_comp (contrEquiv1 dot_S5000x128_S128x128_S5000x128_1_0_0_1_n_n 128 rfl rfl).symm]
  refine Finset.sum_congr rfl fun j _ => ?_
  have hj := contrEquiv1_symm_val dot_S5000x128_S128x128_S5000x128_1_0_0_1_n_n 128 rfl rfl j
  have el : dot_S5000x128_S128x128_S5000x128_1_0_0_1_n_n.lhsIdx (ix2 r k) ((contrEquiv1 dot_S5000x128_S128x128_S5000x128_1_0_0_1_n_n 128 rfl rfl).symm j) = ix2 r j := funext fun a => Fin.ext (by
    match a with
    | ⟨0, _⟩ => exact lhs_0 _ _
    | ⟨1, _⟩ => exact (lhs_1 _ _).trans hj)
  have er : dot_S5000x128_S128x128_S5000x128_1_0_0_1_n_n.rhsIdx (ix2 r k) ((contrEquiv1 dot_S5000x128_S128x128_S5000x128_1_0_0_1_n_n 128 rfl rfl).symm j) = ix2 j k := funext fun a => Fin.ext (by
    match a with
    | ⟨0, _⟩ => exact (rhs_0 _ _).trans hj
    | ⟨1, _⟩ => exact rhs_1 _ _)
  rw [el, er]

/-- One stored entry: at row `r`, column `k` of the block the body stores the row's factor times the entry of
    the product of the block with the weight matrix; it reads the whole row `r` of the block and the whole column `k` of the weights. -/
theorem pay_apply (x : Vec Ideal S5000x128 .f32) (w : Vec Ideal S128x128 .f32) (d : Vec Ideal S5000x1 .f32)
    (r : Fin 5000) (k : Fin 128) :
    k0_pay1 x w d (ix2 r k) = d (ix2 r 0) * ∑ j : Fin 128, x (ix2 r j) * w (ix2 j k) := by
  unfold k0_pay1
  simp only [shapeCast_self]
  rw [truncf_apply, mulf_apply,
    broadcastTo_apply d broadcasts_S5000x1_S5000x128 (ix2 r k) (ix2 r 0) (fun a => by match a with | ⟨0, _⟩ => rfl | ⟨1, _⟩ => rfl),
    matmul_zero_apply]
  rfl

/-- The three input arrays as the region finds them, as arrays of extended reals: the [50000,128] operand, -/
abbrev X (c : Dev nD) : S50000x128.Idx → EReal := V c main_arg0
/-- the [50000,1] column of row factors, -/
abbrev D (c : Dev nD) : S50000x1.Idx → EReal := V c main_v18
/-- and the [128,128] weight matrix. -/
abbrev W (c : Dev nD) : S128x128.Idx → EReal := V c main_v15

/-- The array the region leaves, entry by entry: row `n` of the operand times the weight matrix, scaled by the row's factor. -/
def G (c : Dev nD) : S50000x128.Idx → EReal := fun i =>
  D V c (ix2 (⟨(i 0).val, idx2_lt0 i⟩ : Fin 50000) (0 : Fin 1))
    * ∑ j : Fin 128, X V c (ix2 (⟨(i 0).val, idx2_lt0 i⟩ : Fin 50000) j) * W V c (ix2 j (⟨(i 1).val, idx2_lt1 i⟩ : Fin 128))

/-- `G` at an entry, with the input entries named by their coordinates: the row factor's in the same row, the
    operand's along the same row, the weights' down the same column. -/
theorem G_apply (c : Dev nD) (i : S50000x128.Idx) (i1 : S50000x1.Idx) (f0 : Fin 128 → S50000x128.Idx) (f2 : Fin 128 → S128x128.Idx)
    (h10 : (i1 0).val = (i 0).val) (h11 : (i1 1).val = 0)
    (h00 : ∀ j, (f0 j 0).val = (i 0).val) (h01 : ∀ j, (f0 j 1).val = j.val)
    (h20 : ∀ j, (f2 j 0).val = j.val) (h21 : ∀ j, (f2 j 1).val = (i 1).val) :
    D V c i1 * ∑ j : Fin 128, X V c (f0 j) * W V c (f2 j) = G V c i := by
  have e1 : i1 = ix2 (⟨(i 0).val, idx2_lt0 i⟩ : Fin 50000) (0 : Fin 1) := by
    funext a; apply Fin.ext
    match a with
    | ⟨0, _⟩ => exact h10
    | ⟨1, _⟩ => exact h11
  have e0 : ∀ j, f0 j = ix2 (⟨(i 0).val, idx2_lt0 i⟩ : Fin 50000) j := fun j => by
    funext a; apply Fin.ext
    match a with
    | ⟨0, _⟩ => exact h00 j
    | ⟨1, _⟩ => exact h01 j
  have e2 : ∀ j, f2 j = ix2 j (⟨(i 1).val, idx2_lt1 i⟩ : Fin 128) := fun j => by
    funext a; apply Fin.ext
    match a with
    | ⟨0, _⟩ => exact h20 j
    | ⟨1, _⟩ => exact h21 j
  unfold G
  rw [e1]
  exact congrArg _ (Finset.sum_congr rfl fun j _ => by rw [e0 j, e2 j])

/-- The block indices, decided over the ten grid points: the row-blocked windows are at block `t`, the weights at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point `t` writes back is block `t` of `G`: the entry at row `r` of the block is the entry of
    `G` at row `5000 t + r`; it reads row `5000 t + r` of the operand and of the row factors, and the whole weight matrix. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero zeros2]
  simp only [View.ld_unit_zero (S := S5000x1) zeros2, View.ld_unit_zero (S := S5000x128) zeros2, View.ld_unit_zero (S := S128x128) zeros2]
  obtain ⟨e00, e01, e10, e11, e20, e21, e30, e31⟩ := idx_facts t
  funext j
  obtain ⟨r, k, rfl⟩ : ∃ (r : Fin 5000) (k : Fin 128), j = ix2 r k := ⟨j 0, j 1, eq_ix2 j⟩
  refine (pay_apply _ _ _ r k).trans ?_
  show D V c (((cfg0.win 1).blk t).view.emb (ix2 r 0))
      * ∑ j : Fin 128, X V c (((cfg0.win 0).blk t).view.emb (ix2 r j)) * W V c (((cfg0.win 2).blk t).view.emb (ix2 j k))
    = G V c (((cfg0.win 3).blk t).view.emb (ix2 r k))
  exact G_apply V c _ _ (fun j => ((cfg0.win 0).blk t).view.emb (ix2 r j)) (fun j => ((cfg0.win 2).blk t).view.emb (ix2 j k))
    (show win0_1.index t (0 : Fin 2) * 5000 + 1 * r.val = win0_3.index t (0 : Fin 2) * 5000 + 1 * r.val by omega)
    (show win0_1.index t (1 : Fin 2) * 1 + 1 * 0 = 0 by omega)
    (fun j => show win0_0.index t (0 : Fin 2) * 5000 + 1 * r.val = win0_3.index t (0 : Fin 2) * 5000 + 1 * r.val by omega)
    (fun j => show win0_0.index t (1 : Fin 2) * 128 + 1 * j.val = j.val by omega)
    (fun j => show win0_2.index t (0 : Fin 2) * 128 + 1 * j.val = j.val by omega)
    (fun j => show win0_2.index t (1 : Fin 2) * 128 + 1 * k.val = win0_3.index t (1 : Fin 2) * 128 + 1 * k.val by omega)

/-- An entry of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v19).slice (win0_3.rect t)).set ↔ _
  rw [View.set_slice_whole, Rect.mem_set_unit]
  exact Iff.rfl

/-- Every entry is written: row `n` lies in the block of point `n / 5000`. -/
theorem cover (i : S50000x128.Idx) :
    ∃ t : Fin cfg0.N, (cfg0.win 3).flush t = true ∧ i ∈ ((cfg0.win 3).blk t).view.set := by
  have hi0 : (i 0).val < 50000 := idx2_lt0 i
  have hi1 : (i 1).val < 128 := idx2_lt1 i
  have hN : cfg0.N = 10 := N_0
  obtain ⟨t, ht⟩ : ∃ t : Fin cfg0.N, t.val = (i 0).val / 5000 :=
    ⟨⟨(i 0).val / 5000, lt_of_lt_of_eq (by omega : (i 0).val / 5000 < 10) hN.symm⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region is `G`. -/
theorem final_arr (c : Dev nD) : (dat0 V c).arrAt 3 cfg0.N = G V c :=
  (dat0 V c).arrAt_eq_of_cover 3 (G V c) (fun t _ => flushed_eq V c t) cover

/-- Entry by entry: the output at row `n`, column `k` is the row's factor times the sum over `j` of the operand's
    entry `(n, j)` times the weight `(j, k)`. -/
theorem final (c : Dev nD) (n : Fin 50000) (k : Fin 128) :
    ((dat0 V c).arrAt 3 cfg0.N : S50000x128.Idx → EReal) (ix2 n k)
      = D V c (ix2 n 0) * ∑ j : Fin 128, X V c (ix2 n j) * W V c (ix2 j k) :=
  (congrFun (final_arr V c) (ix2 n k)).trans rfl

end Cert.KernelIdeal.Region0

end
-- ==== Proof.Region1.lean ====
/- A hidden layer's bias, rectifier and dense product, row-blocked. The region's output array is, entry by entry,
   out[n, k] = d[n] · Σ_j max(d[n] · a[n, j] + b[j], 0) · w[j, k]: row n of the [50000,128] aggregate, scaled by the row's
   factor d[n], plus the bias row, rectified, times the [128,128] weight matrix, scaled by d[n] again. The grid has ten
   points; a block is 5000 consecutive rows (point t holds rows 5000·t … 5000·t+4999) of the aggregate, of the column of row
   factors and of the output, while the bias row and the weight matrix are whole at every point. An entry of the output depends
   on its own row of the aggregate, its row's factor, the bias row and its column of the weights only, so each block written
   back is a block of one function of the input arrays, and the ten blocks cover the array. -/
import proofs.«101799_j10368051053156_2_alg».proof.Proof.Gen.KernelIdeal.Frame
import Idealize.ShloMosaic.Lib.Pipeline.Value
import Idealize.ShloMosaic.Lib.ValueIdx
import Idealize.ShloMosaic.PureOps.Ideal.Laws
set_option maxRecDepth 16384

noncomputable section

namespace Cert.KernelIdeal.Region1

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, as a constant function. -/
theorem zeros2 : (![0, 0] : Fin 2 → Nat) = fun _ => 0 := funext fun a => by fin_cases a <;> rfl

/-- The operand positions of the block product at output position `i` and contraction position `q`: the left operand is
    read in row `i 0` at column `q`, the right operand in row `q` at column `i 1`. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at row `r` and column `k`: the sum over the 128 contracted
    positions of the products of the left operand's row `r` and the right operand's column `k`. -/
theorem matmul_zero_apply (A : FVec Ideal S5000x128 .bf16) (W : FVec Ideal S128x128 .bf16) (r : Fin 5000) (k : Fin 128) :
    matmul dot_S5000x128_S128x128_S5000x128_1_0_0_1_n_n none A W (constant (F := Ideal) S5000x128 .f32 0x00000000#32) (ix2 r k)
      = ∑ j : Fin 128, A (ix2 r j) * W (ix2 j k) := by
  show FloatOps.matmul dot_S5000x128_S128x128_S5000x128_1_0_0_1_n_n none A W (constant (F := Ideal) S5000x128 .f32 0x00000000#32) (ix2 r k) = _
  rw [Ideal.matmul_constant_zero_apply, ← Equiv.sum_comp (contrEquiv1 dot_S5000x128_S128x128_S5000x128_1_0_0_1_n_n 128 rfl rfl).symm]
  refine Finset.sum_congr rfl fun j _ => ?_
  have hj := contrEquiv1_symm_val dot_S5000x128_S128x128_S5000x128_1_0_0_1_n_n 128 rfl rfl j
  have el : dot_S5000x128_S128x128_S5000x128_1_0_0_1_n_n.lhsIdx (ix2 r k) ((contrEquiv1 dot_S5000x128_S128x128_S5000x128_1_0_0_1_n_n 128 rfl rfl).symm j) = ix2 r j := funext fun a => Fin.ext (by
    match a with
    | ⟨0, _⟩ => exact lhs_0 _ _
    | ⟨1, _⟩ => exact (lhs_1 _ _).trans hj)
  have er : dot_S5000x128_S128x128_S5000x128_1_0_0_1_n_n.rhsIdx (ix2 r k) ((contrEquiv1 dot_S5000x128_S128x128_S5000x128_1_0_0_1_n_n 128 rfl rfl).symm j) = ix2 j k := funext fun a => Fin.ext (by
    match a with
    | ⟨0, _⟩ => exact (rhs_0 _ _).trans hj
    | ⟨1, _⟩ => exact rhs_1 _ _)
  rw [el, er]

/-- One stored entry: at row `r`, column `k` of the block the body stores the row's factor times the entry of the
    product of the rectified block with the weight matrix, where the rectified block at `(r, j)` is the larger of zero
    and the row's factor times the entry plus the bias of column `j`; it reads the whole row `r` of the block, the whole
    bias row and the whole column `k` of the weights. -/
theorem pay_apply (d : Vec Ideal S5000x1 .f32) (x : Vec Ideal S5000x128 .f32) (b : Vec Ideal S1x128 .f32)
    (w : Vec Ideal S128x128 .f32) (d' : Vec Ideal S5000x1 .f32) (r : Fin 5000) (k : Fin 128) :
    k1_pay1 d x b w d' (ix2 r k)
      = d' (ix2 r 0) * ∑ j : Fin 128, max (d (ix2 r 0) * x (ix2 r j) + b (ix2 0 j)) 0 * w (ix2 j k) := by
  unfold k1_pay1
  simp only [shapeCast_self]
  rw [truncf_apply, mulf_apply,
    broadcastTo_apply d' broadcasts_S5000x1_S5000x128 (ix2 r k) (ix2 r 0) (fun a => by match a with | ⟨0, _⟩ => rfl | ⟨1, _⟩ => rfl),
    matmul_zero_apply]
  refine congrArg _ (Finset.sum_congr rfl fun j _ => ?_)
  rw [truncf_apply, truncf_apply, maximumf_apply, addf_apply, mulf_apply, broadcast_apply,
    broadcastTo_apply d broadcasts_S5000x1_S5000x128 (ix2 r j) (ix2 r 0) (fun a => by match a with | ⟨0, _⟩ => rfl | ⟨1, _⟩ => rfl),
    broadcastTo_apply b broadcasts_S1x128_S5000x128 (ix2 r j) (ix2 0 j) (fun a => by match a with | ⟨0, _⟩ => rfl | ⟨1, _⟩ => rfl)]
  show max _ (Ideal.ofBits .f32 0x00000000#32) * _ = _
  rw [Ideal.ofBits_zero_f32]

/-- The four input arrays as the region finds them, as arrays of extended reals: the [50000,128] operand, -/
abbrev X (c : Dev nD) : S50000x128.Idx → EReal := V c main_v30
/-- the [50000,1] column of row factors, -/
abbrev D (c : Dev nD) : S50000x1.Idx → EReal := V c main_v31
/-- the [1,128] bias row, -/
abbrev B (c : Dev nD) : S1x128.Idx → EReal := V c main_v32
/-- and the [128,128] weight matrix. -/
abbrev W (c : Dev nD) : S128x128.Idx → EReal := V c main_v16

/-- The array the region leaves, entry by entry: row `n` of the operand, scaled by the row's factor, biased and rectified,
    times the weight matrix, scaled by the row's factor again. -/
def G (c : Dev nD) : S50000x128.Idx → EReal := fun i =>
  D V c (ix2 (⟨(i 0).val, idx2_lt0 i⟩ : Fin 50000) (0 : Fin 1))
    * ∑ j : Fin 128, max (D V c (ix2 (⟨(i 0).val, idx2_lt0 i⟩ : Fin 50000) (0 : Fin 1)) * X V c (ix2 (⟨(i 0).val, idx2_lt0 i⟩ : Fin 50000) j)
        + B V c (ix2 (0 : Fin 1) j)) 0 * W V c (ix2 j (⟨(i 1).val, idx2_lt1 i⟩ : Fin 128))

/-- `G` at an entry, with the input entries named by their coordinates: the row factor's in the same row, the
    operand's along the same row, the bias's along its one row, the weights' down the same column. -/
theorem G_apply (c : Dev nD) (i : S50000x128.Idx) (i1 : S50000x1.Idx) (f0 : Fin 128 → S50000x128.Idx) (f2 : Fin 128 → S1x128.Idx)
    (f3 : Fin 128 → S128x128.Idx)
    (h10 : (i1 0).val = (i 0).val) (h11 : (i1 1).val = 0)
    (h00 : ∀ j, (f0 j 0).val = (i 0).val) (h01 : ∀ j, (f0 j 1).val = j.val)
    (h20 : ∀ j, (f2 j 0).val = 0) (h21 : ∀ j, (f2 j 1).val = j.val)
    (h30 : ∀ j, (f3 j 0).val = j.val) (h31 : ∀ j, (f3 j 1).val = (i 1).val) :
    D V c i1 * ∑ j : Fin 128, max (D V c i1 * X V c (f0 j) + B V c (f2 j)) 0 * W V c (f3 j) = G V c i := by
  have e1 : i1 = ix2 (⟨(i 0).val, idx2_lt0 i⟩ : Fin 50000) (0 : Fin 1) := by
    funext a; apply Fin.ext
    match a with
    | ⟨0, _⟩ => exact h10
    | ⟨1, _⟩ => exact h11
  have e0 : ∀ j, f0 j = ix2 (⟨(i 0).val, idx2_lt0 i⟩ : Fin 50000) j := fun j => by
    funext a; apply Fin.ext
    match a with
    | ⟨0, _⟩ => exact h00 j
    | ⟨1, _⟩ => exact h01 j
  have e2 : ∀ j, f2 j = ix2 (0 : Fin 1) j := fun j => by
    funext a; apply Fin.ext
    match a with
    | ⟨0, _⟩ => exact h20 j
    | ⟨1, _⟩ => exact h21 j
  have e3 : ∀ j, f3 j = ix2 j (⟨(i 1).val, idx2_lt1 i⟩ : Fin 128) := fun j => by
    funext a; apply Fin.ext
    match a with
    | ⟨0, _⟩ => exact h30 j
    | ⟨1, _⟩ => exact h31 j
  unfold G
  rw [e1]
  exact congrArg _ (Finset.sum_congr rfl fun j _ => by rw [e0 j, e2 j, e3 j])

/-- The block indices, decided over the ten grid points: the row-blocked windows are at block `t`, the bias and the
    weights at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What grid point `t` writes back is block `t` of `G`: the entry at row `r` of the block is the entry of
    `G` at row `5000 t + r`; it reads row `5000 t + r` of the operand and of the row factors, the whole bias row and
    the whole weight matrix. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero zeros2]
  simp only [View.ld_unit_zero (S := S5000x1) zeros2, View.ld_unit_zero (S := S5000x128) zeros2,
    View.ld_unit_zero (S := S1x128) zeros2, View.ld_unit_zero (S := S128x128) zeros2]
  obtain ⟨e00, e01, e10, e11, e20, e21, e30, e31, e40, e41⟩ := idx_facts t
  funext j
  obtain ⟨r, k, rfl⟩ : ∃ (r : Fin 5000) (k : Fin 128), j = ix2 r k := ⟨j 0, j 1, eq_ix2 j⟩
  refine (pay_apply _ _ _ _ _ r k).trans ?_
  show D V c (((cfg1.win 1).blk t).view.emb (ix2 r 0))
      * ∑ j : Fin 128, max (D V c (((cfg1.win 1).blk t).view.emb (ix2 r 0)) * X V c (((cfg1.win 0).blk t).view.emb (ix2 r j))
          + B V c (((cfg1.win 2).blk t).view.emb (ix2 0 j))) 0 * W V c (((cfg1.win 3).blk t).view.emb (ix2 j k))
    = G V c (((cfg1.win 4).blk t).view.emb (ix2 r k))
  exact G_apply V c _ _ (fun j => ((cfg1.win 0).blk t).view.emb (ix2 r j)) (fun j => ((cfg1.win 2).blk t).view.emb (ix2 0 j))
    (fun j => ((cfg1.win 3).blk t).view.emb (ix2 j k))
    (show win1_1.index t (0 : Fin 2) * 5000 + 1 * r.val = win1_4.index t (0 : Fin 2) * 5000 + 1 * r.val by omega)
    (show win1_1.index t (1 : Fin 2) * 1 + 1 * 0 = 0 by omega)
    (fun j => show win1_0.index t (0 : Fin 2) * 5000 + 1 * r.val = win1_4.index t (0 : Fin 2) * 5000 + 1 * r.val by omega)
    (fun j => show win1_0.index t (1 : Fin 2) * 128 + 1 * j.val = j.val by omega)
    (fun j => show win1_2.index t (0 : Fin 2) * 1 + 1 * 0 = 0 by omega)
    (fun j => show win1_2.index t (1 : Fin 2) * 128 + 1 * j.val = j.val by omega)
    (fun j => show win1_3.index t (0 : Fin 2) * 128 + 1 * j.val = j.val by omega)
    (fun j => show win1_3.index t (1 : Fin 2) * 128 + 1 * k.val = win1_4.index t (1 : Fin 2) * 128 + 1 * k.val by omega)

/-- An entry of the array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v33).slice (win1_4.rect t)).set ↔ _
  rw [View.set_slice_whole, Rect.mem_set_unit]
  exact Iff.rfl

/-- Every entry is written: row `n` lies in the block of point `n / 5000`. -/
theorem cover (i : S50000x128.Idx) :
    ∃ t : Fin cfg1.N, (cfg1.win 4).flush t = true ∧ i ∈ ((cfg1.win 4).blk t).view.set := by
  have hi0 : (i 0).val < 50000 := idx2_lt0 i
  have hi1 : (i 1).val < 128 := idx2_lt1 i
  have hN : cfg1.N = 10 := N_1
  obtain ⟨t, ht⟩ : ∃ t : Fin cfg1.N, t.val = (i 0).val / 5000 :=
    ⟨⟨(i 0).val / 5000, lt_of_lt_of_eq (by omega : (i 0).val / 5000 < 10) hN.symm⟩, rfl⟩
  obtain ⟨-, -, -, -, -, -, -, -, e40, e41⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region is `G`. -/
theorem final_arr (c : Dev nD) : (dat1 V c).arrAt 4 cfg1.N = G V c :=
  (dat1 V c).arrAt_eq_of_cover 4 (G V c) (fun t _ => flushed_eq V c t) cover

/-- Entry by entry: the output at row `n`, column `k` is the row's factor times the sum over `j` of the rectified
    entry `(n, j)` — the larger of zero and the row's factor times the operand's entry plus the bias of column `j` —
    times the weight `(j, k)`. -/
theorem final (c : Dev nD) (n : Fin 50000) (k : Fin 128) :
    ((dat1 V c).arrAt 4 cfg1.N : S50000x128.Idx → EReal) (ix2 n k)
      = D V c (ix2 n 0) * ∑ j : Fin 128, max (D V c (ix2 n 0) * X V c (ix2 n j) + B V c (ix2 0 j)) 0 * W V c (ix2 j k) :=
  (congrFun (final_arr V c) (ix2 n k)).trans rfl

end Cert.KernelIdeal.Region1

end
-- ==== Proof.Region2.lean ====
/- The last hidden layer's bias, rectifier and dense product, row-blocked. The region's output array is, entry by entry,
   out[n, k] = d[n] · Σ_j max(d[n] · a[n, j] + b[j], 0) · w[j, k] for k below 64: row n of the [50000,128] aggregate, scaled
   by the row's factor d[n], plus the bias row, rectified, times the [128,64] weight matrix, scaled by d[n] again. The grid
   has ten points; a block is 5000 consecutive rows (point t holds rows 5000·t … 5000·t+4999) of the aggregate, of the column
   of row factors and of the [50000,64] output, while the bias row and the weight matrix are whole at every point. An entry of
   the output depends on its own row of the aggregate, its row's factor, the bias row and its column of the weights only, so
   each block written back is a block of one function of the input arrays, and the ten blocks cover the array. -/
import proofs.«101799_j10368051053156_2_alg».proof.Proof.Gen.KernelIdeal.Frame
import Idealize.ShloMosaic.Lib.Pipeline.Value
import Idealize.ShloMosaic.Lib.ValueIdx
import Idealize.ShloMosaic.PureOps.Ideal.Laws
set_option maxRecDepth 16384

noncomputable section

namespace Cert.KernelIdeal.Region2

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, as a constant function. -/
theorem zeros2 : (![0, 0] : Fin 2 → Nat) = fun _ => 0 := funext fun a => by fin_cases a <;> rfl

/-- The operand positions of the block product at output position `i` and contraction position `q`: the left operand is
    read in row `i 0` at column `q`, the right operand in row `q` at column `i 1`. -/
theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block product into a zero accumulator, at row `r` and column `k`: the sum over the 128 contracted
    positions of the products of the left operand's row `r` and the right operand's column `k`. -/
theorem matmul_zero_apply (A : FVec Ideal S5000x128 .bf16) (W : FVec Ideal S128x64 .bf16) (r : Fin 5000) (k : Fin 64) :
    matmul dot_S5000x128_S128x64_S5000x64_1_0_0_1_n_n none A W (constant (F := Ideal) S5000x64 .f32 0x00000000#32) (ix2 r k)
      = ∑ j : Fin 128, A (ix2 r j) * W (ix2 j k) := by
  show FloatOps.matmul dot_S5000x128_S128x64_S5000x64_1_0_0_1_n_n none A W (constant (F := Ideal) S5000x64 .f32 0x00000000#32) (ix2 r k) = _
  rw [Ideal.matmul_constant_zero_apply, ← Equiv.sum_comp (contrEquiv1 dot_S5000x128_S128x64_S5000x64_1_0_0_1_n_n 128 rfl rfl).symm]
  refine Finset.sum_congr rfl fun j _ => ?_
  have hj := contrEquiv1_symm_val dot_S5000x128_S128x64_S5000x64_1_0_0_1_n_n 128 rfl rfl j
  have el : dot_S5000x128_S128x64_S5000x64_1_0_0_1_n_n.lhsIdx (ix2 r k) ((contrEquiv1 dot_S5000x128_S128x64_S5000x64_1_0_0_1_n_n 128 rfl rfl).symm j) = ix2 r j := funext fun a => Fin.ext (by
    match a with
    | ⟨0, _⟩ => exact lhs_0 _ _
    | ⟨1, _⟩ => exact (lhs_1 _ _).trans hj)
  have er : dot_S5000x128_S128x64_S5000x64_1_0_0_1_n_n.rhsIdx (ix2 r k) ((contrEquiv1 dot_S5000x128_S128x64_S5000x64_1_0_0_1_n_n 128 rfl rfl).symm j) = ix2 j k := funext fun a => Fin.ext (by
    match a with
    | ⟨0, _⟩ => exact (rhs_0 _ _).trans hj
    | ⟨1, _⟩ => exact rhs_1 _ _)
  rw [el, er]

/-- One stored entry: at row `r`, column `k` of the block the body stores the row's factor times the entry of the
    product of the rectified block with the weight matrix, where the rectified block at `(r, j)` is the larger of zero
    and the row's factor times the entry plus the bias of column `j`; it reads the whole row `r` of the block, the whole
    bias row and the whole column `k` of the weights. -/
theorem pay_apply (d : Vec Ideal S5000x1 .f32) (x : Vec Ideal S5000x128 .f32) (b : Vec Ideal S1x128 .f32)
    (w : Vec Ideal S128x64 .f32) (d' : Vec Ideal S5000x1 .f32) (r : Fin 5000) (k : Fin 64) :
    k2_pay1 d x b w d' (ix2 r k)
      = d' (ix2 r 0) * ∑ j : Fin 128, max (d (ix2 r 0) * x (ix2 r j) + b (ix2 0 j)) 0 * w (ix2 j k) := by
  unfold k2_pay1
  simp only [shapeCast_self]
  rw [truncf_apply, mulf_apply,
    broadcastTo_apply d' broadcasts_S5000x1_S5000x64 (ix2 r k) (ix2 r 0) (fun a => by match a with | ⟨0, _⟩ => rfl | ⟨1, _⟩ => rfl),
    matmul_zero_apply]
  refine congrArg _ (Finset.sum_congr rfl fun j _ => ?_)
  rw [truncf_apply, truncf_apply, maximumf_apply, addf_apply, mulf_apply, broadcast_apply,
    broadcastTo_apply d broadcasts_S5000x1_S5000x128 (ix2 r j) (ix2 r 0) (fun a => by match a with | ⟨0, _⟩ => rfl | ⟨1, _⟩ => rfl),
    broadcastTo_apply b broadcasts_S1x128_S5000x128 (ix2 r j) (ix2 0 j) (fun a => by match a with | ⟨0, _⟩ => rfl | ⟨1, _⟩ => rfl)]
  show max _ (Ideal.ofBits .f32 0x00000000#32) * _ = _
  rw [Ideal.ofBits_zero_f32]

/-- The four input arrays as the region finds them, as arrays of extended reals: the [50000,128] operand, -/
abbrev X (c : Dev nD) : S50000x128.Idx → EReal := V c main_v44
/-- the [50000,1] column of row factors, -/
abbrev D (c : Dev nD) : S50000x1.Idx → EReal := V c main_v45
/-- the [1,128] bias row, -/
abbrev B (c : Dev nD) : S1x128.Idx → EReal := V c main_v46
/-- and the [128,64] weight matrix. -/
abbrev W (c : Dev nD) : S128x64.Idx → EReal := V c main_v17

/-- The array the region leaves, entry by entry: row `n` of the operand, scaled by the row's factor, biased and rectified,
    times the weight matrix, scaled by the row's factor again. -/
def G (c : Dev nD) : S50000x64.Idx → EReal := fun i =>
  D V c (ix2 (⟨(i 0).val, idx2_lt0 i⟩ : Fin 50000) (0 : Fin 1))
    * ∑ j : Fin 128, max (D V c (ix2 (⟨(i 0).val, idx2_lt0 i⟩ : Fin 50000) (0 : Fin 1)) * X V c (ix2 (⟨(i 0).val, idx2_lt0 i⟩ : Fin 50000) j)
        + B V c (ix2 (0 : Fin 1) j)) 0 * W V c (ix2 j (⟨(i 1).val, idx2_lt1 i⟩ : Fin 64))

/-- `G` at an entry, with the input entries named by their coordinates: the row factor's in the same row, the
    operand's along the same row, the bias's along its one row, the weights' down the same column. -/
theorem G_apply (c : Dev nD) (i : S50000x64.Idx) (i1 : S50000x1.Idx) (f0 : Fin 128 → S50000x128.Idx) (f2 : Fin 128 → S1x128.Idx)
    (f3 : Fin 128 → S128x64.Idx)
    (h10 : (i1 0).val = (i 0).val) (h11 : (i1 1).val = 0)
    (h00 : ∀ j, (f0 j 0).val = (i 0).val) (h01 : ∀ j, (f0 j 1).val = j.val)
    (h20 : ∀ j, (f2 j 0).val = 0) (h21 : ∀ j, (f2 j 1).val = j.val)
    (h30 : ∀ j, (f3 j 0).val = j.val) (h31 : ∀ j, (f3 j 1).val = (i 1).val) :
    D V c i1 * ∑ j : Fin 128, max (D V c i1 * X V c (f0 j) + B V c (f2 j)) 0 * W V c (f3 j) = G V c i := by
  have e1 : i1 = ix2 (⟨(i 0).val, idx2_lt0 i⟩ : Fin 50000) (0 : Fin 1) := by
    funext a; apply Fin.ext
    match a with
    | ⟨0, _⟩ => exact h10
    | ⟨1, _⟩ => exact h11
  have e0 : ∀ j, f0 j = ix2 (⟨(i 0).val, idx2_lt0 i⟩ : Fin 50000) j := fun j => by
    funext a; apply Fin.ext
    match a with
    | ⟨0, _⟩ => exact h00 j
    | ⟨1, _⟩ => exact h01 j
  have e2 : ∀ j, f2 j = ix2 (0 : Fin 1) j := fun j => by
    funext a; apply Fin.ext
    match a with
    | ⟨0, _⟩ => exact h20 j
    | ⟨1, _⟩ => exact h21 j
  have e3 : ∀ j, f3 j = ix2 j (⟨(i 1).val, idx2_lt1 i⟩ : Fin 64) := fun j => by
    funext a; apply Fin.ext
    match a with
    | ⟨0, _⟩ => exact h30 j
    | ⟨1, _⟩ => exact h31 j
  unfold G
  rw [e1]
  exact congrArg _ (Finset.sum_congr rfl fun j _ => by rw [e0 j, e2 j, e3 j])

/-- The block indices, decided over the ten grid points: the row-blocked windows are at block `t`, the bias and the
    weights at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What grid point `t` writes back is block `t` of `G`: the entry at row `r` of the block is the entry of
    `G` at row `5000 t + r`; it reads row `5000 t + r` of the operand and of the row factors, the whole bias row and
    the whole weight matrix. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero zeros2]
  simp only [View.ld_unit_zero (S := S5000x1) zeros2, View.ld_unit_zero (S := S5000x128) zeros2,
    View.ld_unit_zero (S := S1x128) zeros2, View.ld_unit_zero (S := S128x64) zeros2]
  obtain ⟨e00, e01, e10, e11, e20, e21, e30, e31, e40, e41⟩ := idx_facts t
  funext j
  obtain ⟨r, k, rfl⟩ : ∃ (r : Fin 5000) (k : Fin 64), j = ix2 r k := ⟨j 0, j 1, eq_ix2 j⟩
  refine (pay_apply _ _ _ _ _ r k).trans ?_
  show D V c (((cfg2.win 1).blk t).view.emb (ix2 r 0))
      * ∑ j : Fin 128, max (D V c (((cfg2.win 1).blk t).view.emb (ix2 r 0)) * X V c (((cfg2.win 0).blk t).view.emb (ix2 r j))
          + B V c (((cfg2.win 2).blk t).view.emb (ix2 0 j))) 0 * W V c (((cfg2.win 3).blk t).view.emb (ix2 j k))
    = G V c (((cfg2.win 4).blk t).view.emb (ix2 r k))
  exact G_apply V c _ _ (fun j => ((cfg2.win 0).blk t).view.emb (ix2 r j)) (fun j => ((cfg2.win 2).blk t).view.emb (ix2 0 j))
    (fun j => ((cfg2.win 3).blk t).view.emb (ix2 j k))
    (show win2_1.index t (0 : Fin 2) * 5000 + 1 * r.val = win2_4.index t (0 : Fin 2) * 5000 + 1 * r.val by omega)
    (show win2_1.index t (1 : Fin 2) * 1 + 1 * 0 = 0 by omega)
    (fun j => show win2_0.index t (0 : Fin 2) * 5000 + 1 * r.val = win2_4.index t (0 : Fin 2) * 5000 + 1 * r.val by omega)
    (fun j => show win2_0.index t (1 : Fin 2) * 128 + 1 * j.val = j.val by omega)
    (fun j => show win2_2.index t (0 : Fin 2) * 1 + 1 * 0 = 0 by omega)
    (fun j => show win2_2.index t (1 : Fin 2) * 128 + 1 * j.val = j.val by omega)
    (fun j => show win2_3.index t (0 : Fin 2) * 128 + 1 * j.val = j.val by omega)
    (fun j => show win2_3.index t (1 : Fin 2) * 64 + 1 * k.val = win2_4.index t (1 : Fin 2) * 64 + 1 * k.val by omega)

/-- An entry of the array is in point `t`'s block iff each coordinate is in the block's range on its axis. -/
theorem mem_blk (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v47).slice (win2_4.rect t)).set ↔ _
  rw [View.set_slice_whole, Rect.mem_set_unit]
  exact Iff.rfl

/-- Every entry is written: row `n` lies in the block of point `n / 5000`. -/
theorem cover (i : S50000x64.Idx) :
    ∃ t : Fin cfg2.N, (cfg2.win 4).flush t = true ∧ i ∈ ((cfg2.win 4).blk t).view.set := by
  have hi0 : (i 0).val < 50000 := idx2_lt0 i
  have hi1 : (i 1).val < 64 := idx2_lt1 i
  have hN : cfg2.N = 10 := N_2
  obtain ⟨t, ht⟩ : ∃ t : Fin cfg2.N, t.val = (i 0).val / 5000 :=
    ⟨⟨(i 0).val / 5000, lt_of_lt_of_eq (by omega : (i 0).val / 5000 < 10) hN.symm⟩, rfl⟩
  obtain ⟨-, -, -, -, -, -, -, -, e40, e41⟩ := idx_facts t
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The output array after the region is `G`. -/
theorem final_arr (c : Dev nD) : (dat2 V c).arrAt 4 cfg2.N = G V c :=
  (dat2 V c).arrAt_eq_of_cover 4 (G V c) (fun t _ => flushed_eq V c t) cover

/-- Entry by entry: the output at row `n`, column `k` is the row's factor times the sum over `j` of the rectified
    entry `(n, j)` — the larger of zero and the row's factor times the operand's entry plus the bias of column `j` —
    times the weight `(j, k)`. -/
theorem final (c : Dev nD) (n : Fin 50000) (k : Fin 64) :
    ((dat2 V c).arrAt 4 cfg2.N : S50000x64.Idx → EReal) (ix2 n k)
      = D V c (ix2 n 0) * ∑ j : Fin 128, max (D V c (ix2 n 0) * X V c (ix2 n j) + B V c (ix2 0 j)) 0 * W V c (ix2 j k) :=
  (congrFun (final_arr V c) (ix2 n k)).trans rfl

end Cert.KernelIdeal.Region2

end
-- ==== Proof.Region3.lean ====
/- The final scaling and bias, row-blocked. The region's output array is, entry by entry, out[n, k] = d[n] · a[n, k] + b[k]:
   the [50000,64] aggregate scaled row by row by the factor d[n], plus the bias row. The grid has ten points; a block is 5000
   consecutive rows (point t holds rows 5000·t … 5000·t+4999) of the aggregate, of the column of row factors and of the
   output, while the bias row is whole at every point. An entry of the output depends on the aggregate's entry at the same
   position, its row's factor and its column's bias only, so each block written back is a block of one function of the
   input arrays, and the ten blocks cover the array. -/
import proofs.«101799_j10368051053156_2_alg».proof.Proof.Gen.KernelIdeal.Frame
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, as a constant function. -/
theorem zeros2 : (![0, 0] : Fin 2 → Nat) = fun _ => 0 := funext fun a => by fin_cases a <;> rfl

/-- One stored entry: at row `r`, column `k` of the block the body stores the row's scale times the
    entry, plus the column's bias. -/
theorem pay_apply (d : Vec Ideal S5000x1 .f32) (x : Vec Ideal S5000x64 .f32) (b : Vec Ideal S1x64 .f32)
    (r : Fin 5000) (k : Fin 64) :
    k3_pay1 d x b (ix2 r k) = d (ix2 r 0) * x (ix2 r k) + b (ix2 0 k) := by
  unfold k3_pay1
  simp only [shapeCast_self]
  rw [addf_apply, mulf_apply,
    broadcastTo_apply d broadcasts_S5000x1_S5000x64 (ix2 r k) (ix2 r 0) (fun a => by match a with | ⟨0, _⟩ => rfl | ⟨1, _⟩ => rfl),
    broadcastTo_apply b broadcasts_S1x64_S5000x64 (ix2 r k) (ix2 0 k) (fun a => by match a with | ⟨0, _⟩ => rfl | ⟨1, _⟩ => rfl)]

/-- The three input arrays as the region finds them, as arrays of extended reals: the [50000,64] operand, -/
abbrev X (c : Dev nD) : S50000x64.Idx → EReal := V c main_v58
/-- the [50000,1] column of row factors, -/
abbrev D (c : Dev nD) : S50000x1.Idx → EReal := V c main_v59
/-- and the [1,64] bias row. -/
abbrev B (c : Dev nD) : S1x64.Idx → EReal := V c main_v60

/-- The array the region leaves, entry by entry: row `n` of the operand scaled by the row's factor, plus the bias row. -/
def G (c : Dev nD) : S50000x64.Idx → EReal := fun i =>
  D V c (ix2 (⟨(i 0).val, idx2_lt0 i⟩ : Fin 50000) (0 : Fin 1)) * X V c i
    + B V c (ix2 (0 : Fin 1) (⟨(i 1).val, idx2_lt1 i⟩ : Fin 64))

/-- The block indices, decided over the ten grid points: the row-blocked windows are at block `t`, the bias at its one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- `G` at an entry, with the three input entries named by their coordinates: the operand's at the same
    position, the row factor's in the same row, the bias's in the same column. -/
theorem G_apply (c : Dev nD) (i i0 : S50000x64.Idx) (i1 : S50000x1.Idx) (i2 : S1x64.Idx)
    (h00 : (i0 0).val = (i 0).val) (h01 : (i0 1).val = (i 1).val)
    (h10 : (i1 0).val = (i 0).val) (h11 : (i1 1).val = 0)
    (h20 : (i2 0).val = 0) (h21 : (i2 1).val = (i 1).val) :
    D V c i1 * X V c i0 + B V c i2 = G V c i := by
  have e0 : i0 = i := by
    funext a; apply Fin.ext
    match a with
    | ⟨0, _⟩ => exact h00
    | ⟨1, _⟩ => exact h01
  have e1 : i1 = ix2 (⟨(i 0).val, idx2_lt0 i⟩ : Fin 50000) (0 : Fin 1) := by
    funext a; apply Fin.ext
    match a with
    | ⟨0, _⟩ => exact h10
    | ⟨1, _⟩ => exact h11
  have e2 : i2 = ix2 (0 : Fin 1) (⟨(i 1).val, idx2_lt1 i⟩ : Fin 64) := by
    funext a; apply Fin.ext
    match a with
    | ⟨0, _⟩ => exact h20
    | ⟨1, _⟩ => exact h21
  rw [e0, e1, e2]
  rfl

/-- What grid point `t` writes back is block `t` of `G`: the entry at row `r` of the block is the entry of
    `G` at row `5000 t + r`; it reads row `5000 t + r` of the operand and of the row factors, and the whole bias row. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero zeros2]
  simp only [View.ld_unit_zero (S := S5000x1) zeros2, View.ld_unit_zero (S := S5000x64) zeros2, View.ld_unit_zero (S := S1x64) zeros2]
  obtain ⟨e00, e01, e10, e11, e20, e21, e30, e31⟩ := idx_facts t
  funext j
  obtain ⟨r, k, rfl⟩ : ∃ (r : Fin 5000) (k : Fin 64), j = ix2 r k := ⟨j 0, j 1, eq_ix2 j⟩
  refine (pay_apply _ _ _ r k).trans ?_
  show D V c (((cfg3.win 1).blk t).view.emb (ix2 r 0)) * X V c (((cfg3.win 0).blk t).view.emb (ix2 r k)) + B V c (((cfg3.win 2).blk t).view.emb (ix2 0 k)) = G V c (((cfg3.win 3).blk t).view.emb (ix2 r k))
  exact G_apply V c _ _ _ _
    (show win3_0.index t (0 : Fin 2) * 5000 + 1 * r.val = win3_3.index t (0 : Fin 2) * 5000 + 1 * r.val by omega)
    (show win3_0.index t (1 : Fin 2) * 64 + 1 * k.val = win3_3.index t (1 : Fin 2) * 64 + 1 * k.val by omega)
    (show win3_1.index t (0 : Fin 2) * 5000 + 1 * r.val = win3_3.index t (0 : Fin 2) * 5000 + 1 * r.val by omega)
    (show win3_1.index t (1 : Fin 2) * 1 + 1 * 0 = 0 by omega)
    (show win3_2.index t (0 : Fin 2) * 1 + 1 * 0 = 0 by omega)
    (show win3_2.index t (1 : Fin 2) * 64 + 1 * k.val = win3_3.index t (1 : Fin 2) * 64 + 1 * k.val by omega)

/-- An entry of the array is in point `t`'s block iff each coordinate is in the block's range on its axis. -/
theorem mem_blk (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v61).slice (win3_3.rect t)).set ↔ _
  rw [View.set_slice_whole, Rect.mem_set_unit]
  exact Iff.rfl

/-- Every entry is written: row `n` lies in the block of point `n / 5000`. -/
theorem cover (i : S50000x64.Idx) :
    ∃ t : Fin cfg3.N, (cfg3.win 3).flush t = true ∧ i ∈ ((cfg3.win 3).blk t).view.set := by
  have hi0 : (i 0).val < 50000 := idx2_lt0 i
  have hi1 : (i 1).val < 64 := idx2_lt1 i
  have hN : cfg3.N = 10 := N_3
  obtain ⟨t, ht⟩ : ∃ t : Fin cfg3.N, t.val = (i 0).val / 5000 :=
    ⟨⟨(i 0).val / 5000, lt_of_lt_of_eq (by omega : (i 0).val / 5000 < 10) hN.symm⟩, rfl⟩
  obtain ⟨-, -, -, -, -, -, e30, e31⟩ := idx_facts t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The output array after the region is `G`. -/
theorem final_arr (c : Dev nD) : (dat3 V c).arrAt 3 cfg3.N = G V c :=
  (dat3 V c).arrAt_eq_of_cover 3 (G V c) (fun t _ => flushed_eq V c t) cover

/-- Entry by entry: the output at row `n`, column `k` is the row's factor times the operand's entry, plus the
    bias of the column. -/
theorem final (c : Dev nD) (n : Fin 50000) (k : Fin 64) :
    ((dat3 V c).arrAt 3 cfg3.N : S50000x64.Idx → EReal) (ix2 n k)
      = D V c (ix2 n 0) * X V c (ix2 n k) + B V c (ix2 0 k) :=
  (congrFun (final_arr V c) (ix2 n k)).trans rfl

end Cert.KernelIdeal.Region3

end
-- ==== Proof.GcnPropagate.lean ====
/-
  One propagation step as the first program spells it, read at an entry.

  Rows of a node-indexed matrix `feat : [50000, C]` (stored in the narrow float format, which at the extended reals is the
  same number) are gathered at the index column of the messages' sources — a negative number counted from the end —, widened,
  and added into a zero matrix at the column of the messages' targets. At entry `(n, k)` that is zero plus the sum, over
  the messages landing on `n`, of `feat (source node of e) k`.
-/
import proofs.«101799_j10368051053156_2_alg».proof.Proof.GcnGraph

noncomputable section

open scoped BigOperators

namespace Cert.Gcn

open Idealize.ShloMosaic Idealize.ShloMosaic.ValueIdx Cert.Edges

theorem propagate_apply {C : ℕ}
    (gd : GatherDims ⟨2, ![50000, C]⟩ ⟨2, ![850000, 1]⟩ ⟨2, ![850000, C]⟩)
    (wfg : GatherDims.WF ⟨2, ![50000, C]⟩ ⟨2, ![850000, 1]⟩ ⟨2, ![850000, C]⟩ [1] [0] [] [0] [] 1 ![1, C])
    (hgd : gd = rowsGather 50000 C 850000 wfg)
    (sd : ScatterDims ⟨2, ![50000, C]⟩ ⟨2, ![850000, 1]⟩ ⟨2, ![850000, C]⟩)
    (wfs : ScatterDims.WF ⟨2, ![50000, C]⟩ ⟨2, ![850000, 1]⟩ ⟨2, ![850000, C]⟩ [1] [0] [0] 1)
    (hsd : sd = rowsScatter 50000 C 850000 wfs)
    (dz : Fin 0 → Fin 2) (hz : Shape.BroadcastsInDim ⟨0, ![]⟩ ⟨2, ![50000, C]⟩ dz)
    (d0 : Fin 0 → Fin 1) (h0 : Shape.BroadcastsInDim ⟨0, ![]⟩ ⟨1, ![850000]⟩ d0)
    (d1 : Fin 1 → Fin 2) (hc : Shape.BroadcastsInDim ⟨1, ![850000]⟩ ⟨2, ![850000, 1]⟩ d1) (hd1 : d1 0 = 0)
    (hb : FTy.bits .bf16 < FTy.bits .f32)
    (feat : FVec Ideal ⟨2, ![50000, C]⟩ .bf16) (rowv colv : IVec ⟨1, ![850000]⟩ 32) (n : Fin 50000) (k : Fin C) :
    Host.scatterAdd (F := Ideal) sd
        (broadcastInDim ⟨2, ![50000, C]⟩ dz hz (constant (F := Ideal) ⟨0, ![]⟩ .f32 0x00000000#32))
        (broadcastInDim ⟨2, ![850000, 1]⟩ d1 hc colv)
        (extf .f32 (Host.gather gd feat
          (broadcastInDim ⟨2, ![850000, 1]⟩ d1 hc
            (select (cmpi .slt rowv (broadcastInDim ⟨1, ![850000]⟩ d0 h0 (constantI ⟨0, ![]⟩ 32 0#32)))
              (addi rowv (broadcastInDim ⟨1, ![850000]⟩ d0 h0 (constantI ⟨0, ![]⟩ 32 50000#32))) rowv))) hb) (ix2 n k)
      = 0 + landed (tgt colv) (fun e => feat (ix2 (nodeOf rowv e) k)) n := by
  subst hgd hsd
  rw [rowsScatterAdd_apply]
  unfold landed tgt
  refine congrArg₂ (· + ·) ?_ (Finset.sum_congr rfl fun e _ => ?_)
  · refine (broadcastInDim_apply dz hz _ (ix2 n k) ix0 (fun a => a.elim0)).trans ?_
    show Ideal.ofBits .f32 0x00000000#32 = 0
    exact Ideal.ofBits_zero_f32
  · rw [column_apply d1 hc hd1]
    refine if_congr Iff.rfl ?_ rfl
    show Host.gather (rowsGather 50000 C 850000 wfg) feat _ (ix2 e k) = _
    rw [rowsGather_apply (by decide : 0 < 50000) wfg feat _ e k, wrapCol_apply d0 h0 d1 hc hd1]
    rfl

end Cert.Gcn

end
-- ==== Proof.KernelValue.lean ====
/-
  The idealized kernel's value, entry by entry.

  Per device, from the launch memory `m`: the messages' signed targets `cI` and source nodes `src` (read off the edge array),
  the node factor `dn` (the reciprocal square root of the number of messages landing on the node where positive, else
  zero), the features `Xf`, three weight matrices and three bias vectors.

  Region 0 leaves, at node `i` and feature `k`, the node's factor times the projected features; the host stretch after
  it accumulates at node `n` the rows of the messages landing on `n`, read at their source nodes; region 1 scales the
  total by the node's factor, adds the bias, cuts at zero, projects again and scales again; and so on: stage by stage the
  arrays are the first spelling of the three layers, `Cert.Gcn.outK` (GcnSpec.lean).
-/
import proofs.«101799_j10368051053156_2_alg».proof.Proof.KernelHost
import proofs.«101799_j10368051053156_2_alg».proof.Proof.Region0
import proofs.«101799_j10368051053156_2_alg».proof.Proof.Region1
import proofs.«101799_j10368051053156_2_alg».proof.Proof.Region2
import proofs.«101799_j10368051053156_2_alg».proof.Proof.Region3
import proofs.«101799_j10368051053156_2_alg».proof.Proof.GcnPropagate
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen Cert.KernelIdeal.HostValue
open Idealize.ShloMosaic Idealize.ShloMosaic.ValueIdx Idealize.ShloMosaic.TcCoe Idealize.ShloMosaic.StableHlo Idealize.SL.Sem
open Cert.Gcn (tgt nodeOf landed proj aggK hidK outK dinv)

/-! ## Layout operations of the host stretches, read at an entry -/

/-- A vector over the nodes viewed as a one-column matrix. -/
theorem col_cast_apply (v : S50000.Idx → EReal) (n : Fin 50000) :
    shapeCast S50000x1 v Gen.shapeCasts_S50000_S50000x1 (ix2 n 0) = v (ix1 n) :=
  shapeCast_apply v _ (ix2 n 0) (ix1 n) (by
    rw [Shape.rowMajor_val_one, Shape.rowMajor_val_two]
    show n.val = n.val * 1 + 0
    omega)

/-- A bias vector viewed as a one-row matrix. -/
theorem row_cast_apply128 (v : S128.Idx → EReal) (j : Fin 128) :
    shapeCast S1x128 v Gen.shapeCasts_S128_S1x128 (ix2 0 j) = v (ix1 j) :=
  shapeCast_apply v _ (ix2 0 j) (ix1 j) (by
    rw [Shape.rowMajor_val_one, Shape.rowMajor_val_two]
    show j.val = 0 * 128 + j.val
    omega)

theorem row_cast_apply64 (v : S64.Idx → EReal) (j : Fin 64) :
    shapeCast S1x64 v Gen.shapeCasts_S64_S1x64 (ix2 0 j) = v (ix1 j) :=
  shapeCast_apply v _ (ix2 0 j) (ix1 j) (by
    rw [Shape.rowMajor_val_one, Shape.rowMajor_val_two]
    show j.val = 0 * 64 + j.val
    omega)

/-- A transposed weight matrix read at `(j, k)` is the matrix at `(k, j)`. -/
theorem transpose_read128 (w : S128x128.Idx → EReal) (j k : Fin 128) :
    transpose S128x128 [1, 0] w Gen.transposes_S128x128_S128x128_1_0 (ix2 j k) = w (ix2 k j) :=
  transpose_apply [1, 0] w _ (ix2 j k) (ix2 k j) (fun b => by
    match b with
    | ⟨0, _⟩ => rfl
    | ⟨1, _⟩ => rfl)

theorem transpose_read64 (w : S64x128.Idx → EReal) (j : Fin 128) (k : Fin 64) :
    transpose S128x64 [1, 0] w Gen.transposes_S64x128_S128x64_1_0 (ix2 j k) = w (ix2 k j) :=
  transpose_apply [1, 0] w _ (ix2 j k) (ix2 k j) (fun b => by
    match b with
    | ⟨0, _⟩ => rfl
    | ⟨1, _⟩ => rfl)

/-- The node factor vector read at a node. -/
theorem dinv_read (ei : IVec S2x800000 32) (n : Fin 50000) :
    (dinvVec ei : S50000.Idx → EReal) (ix1 n) = dinv (tgt (colVec ei)) n :=
  Cert.Gcn.dinvVec_apply ![] Gen.bcast_S_S50000 (colVec ei) (degVec ei)
    (fun n => Cert.Gcn.degVec_apply scatter_S50000_S850000x1_S850000_n_0_0_1 Gen.scatter_S50000_S850000x1_S850000_n_0_0_1_wf rfl
      ![] Gen.bcast_S_S50000 Gen.bcast_S_S850000 ![0] Gen.bcast_S850000_S850000x1_0 rfl (colVec ei) n) n

variable (m : (ℓ : Loc nD τ sig) → Buf (Elt Ideal) ℓ) (ρ : Dev nD → PrngReg)

/-! ## The data of device `c` -/

/-- The messages' signed targets. -/
def cI (c : Dev nD) : Fin 850000 → ℤ := tgt (colVec (m ((c : Thread nD τ).loc main_arg1)))
/-- The messages' source nodes. -/
def src (c : Dev nD) : Fin 850000 → Fin 50000 := nodeOf (rowVec (m ((c : Thread nD τ).loc main_arg1)))
/-- The node factor. -/
def dn (c : Dev nD) : Fin 50000 → EReal := dinv (cI m c)
/-- The input features. -/
def Xf (c : Dev nD) : Fin 50000 → Fin 128 → EReal := fun i j => (m ((c : Thread nD τ).loc main_arg0) : S50000x128.Idx → EReal) (ix2 i j)
/-- The weights `[out, in]` and biases of the three layers. -/
def W0f (c : Dev nD) : Fin 128 → Fin 128 → EReal := fun o j => (m ((c : Thread nD τ).loc main_arg2) : S128x128.Idx → EReal) (ix2 o j)
def B0f (c : Dev nD) : Fin 128 → EReal := fun o => (m ((c : Thread nD τ).loc main_arg3) : S128.Idx → EReal) (ix1 o)
def W1f (c : Dev nD) : Fin 128 → Fin 128 → EReal := fun o j => (m ((c : Thread nD τ).loc main_arg4) : S128x128.Idx → EReal) (ix2 o j)
def B1f (c : Dev nD) : Fin 128 → EReal := fun o => (m ((c : Thread nD τ).loc main_arg5) : S128.Idx → EReal) (ix1 o)
def W2f (c : Dev nD) : Fin 64 → Fin 128 → EReal := fun o j => (m ((c : Thread nD τ).loc main_arg6) : S64x128.Idx → EReal) (ix2 o j)
def B2f (c : Dev nD) : Fin 64 → EReal := fun o => (m ((c : Thread nD τ).loc main_arg7) : S64.Idx → EReal) (ix1 o)

/-! ## The arrays at the segment boundaries, as arrays of extended reals -/

abbrev feat0A (c : Dev nD) : S50000x128.Idx → EReal := W4 m ρ c (Proc.devRef .tc main_v19)
abbrev agg0A (c : Dev nD) : S50000x128.Idx → EReal := W5 m ρ c (Proc.devRef .tc main_v30)
abbrev feat1A (c : Dev nD) : S50000x128.Idx → EReal := W6 m ρ c (Proc.devRef .tc main_v33)
abbrev agg1A (c : Dev nD) : S50000x128.Idx → EReal := W7 m ρ c (Proc.devRef .tc main_v44)
abbrev feat2A (c : Dev nD) : S50000x64.Idx → EReal := W8 m ρ c (Proc.devRef .tc main_v47)
abbrev agg2A (c : Dev nD) : S50000x64.Idx → EReal := W9 m ρ c (Proc.devRef .tc main_v58)
abbrev outA (c : Dev nD) : S50000x64.Idx → EReal := W10 m ρ c (Proc.devRef .tc main_v61)

/-! ## Layer 1 -/

/-- Region 0: the node's factor times the projected input features. -/
theorem feat0_apply (c : Dev nD) (n : Fin 50000) (k : Fin 128) :
    feat0A m ρ c (ix2 n k) = dn m c n * proj (Xf m c) (W0f m c) n k := by
  have hW : W4 m ρ c (Proc.devRef .tc main_v19) = (dat0 (V3 m ρ) c).arrAt 3 cfg0.N := W4_arr m ρ c 3
  show (W4 m ρ c (Proc.devRef .tc main_v19) : S50000x128.Idx → EReal) (ix2 n k) = _
  rw [hW]
  refine (Region0.final (V3 m ρ) c n k).trans ?_
  rw [show Region0.D (V3 m ρ) c = shapeCast S50000x1 (dinvVec (m ((c : Thread nD τ).loc main_arg1))) Gen.shapeCasts_S50000_S50000x1 from W3_v18 m ρ c,
    show Region0.X (V3 m ρ) c = m ((c : Thread nD τ).loc main_arg0) from W3_a0 m ρ c,
    show Region0.W (V3 m ρ) c = transpose S128x128 [1, 0] (m ((c : Thread nD τ).loc main_arg2)) Gen.transposes_S128x128_S128x128_1_0 from W3_v15 m ρ c,
    col_cast_apply, dinv_read]
  refine congrArg (dinv _ n * ·) (Finset.sum_congr rfl fun j _ => ?_)
  rw [transpose_read128]
  rfl

/-- The stretch after region 0: at node `n` the accumulated rows of the messages landing on `n`, read at their sources. -/
theorem agg0_apply (c : Dev nD) (n : Fin 50000) (k : Fin 128) :
    agg0A m ρ c (ix2 n k) = aggK (cI m c) (src m c) (dn m c) (proj (Xf m c) (W0f m c)) n k := by
  show (W5 m ρ c (Proc.devRef .tc main_v30) : S50000x128.Idx → EReal) (ix2 n k) = _
  rw [W5_v30 m ρ c]
  refine (Cert.Gcn.propagate_apply gather_S50000x128_S850000x1_S850000x128_1_0_n_n_0_1_1128 Gen.gather_S50000x128_S850000x1_S850000x128_1_0_n_n_0_1_1128_wf rfl
    scatter_S50000x128_S850000x1_S850000x128_1_0_0_1 Gen.scatter_S50000x128_S850000x1_S850000x128_1_0_0_1_wf rfl
    ![] Gen.bcast_S_S50000x128 ![] Gen.bcast_S_S850000 ![0] Gen.bcast_S850000_S850000x1_0 rfl Gen.bitsLt_bf16_f32
    (W4 m ρ c (Proc.devRef .tc main_v19)) (rowVec (m ((c : Thread nD τ).loc main_arg1))) (colVec (m ((c : Thread nD τ).loc main_arg1))) n k).trans ?_
  exact congrArg (fun f => 0 + landed (cI m c) f n) (funext fun e => feat0_apply m ρ c (src m c e) k)

/-! ## Layer 2 -/

/-- Region 1: scale the accumulated total by the node's factor, add the bias, cut at zero, project, scale by the node's factor. -/
theorem feat1_apply (c : Dev nD) (n : Fin 50000) (k : Fin 128) :
    feat1A m ρ c (ix2 n k) = dn m c n * proj (hidK (cI m c) (src m c) (dn m c) (proj (Xf m c) (W0f m c)) (B0f m c)) (W1f m c) n k := by
  have hW : W6 m ρ c (Proc.devRef .tc main_v33) = (dat1 (V5 m ρ) c).arrAt 4 cfg1.N := W6_arr m ρ c 4
  show (W6 m ρ c (Proc.devRef .tc main_v33) : S50000x128.Idx → EReal) (ix2 n k) = _
  rw [hW]
  refine (Region1.final (V5 m ρ) c n k).trans ?_
  rw [show Region1.D (V5 m ρ) c = shapeCast S50000x1 (dinvVec (m ((c : Thread nD τ).loc main_arg1))) Gen.shapeCasts_S50000_S50000x1 from W5_v31 m ρ c,
    show Region1.B (V5 m ρ) c = shapeCast S1x128 (m ((c : Thread nD τ).loc main_arg3)) Gen.shapeCasts_S128_S1x128 from W5_v32 m ρ c,
    show Region1.W (V5 m ρ) c = transpose S128x128 [1, 0] (m ((c : Thread nD τ).loc main_arg4)) Gen.transposes_S128x128_S128x128_1_0 from W5_v16 m ρ c,
    col_cast_apply, dinv_read]
  refine congrArg (dinv _ n * ·) (Finset.sum_congr rfl fun j _ => ?_)
  rw [transpose_read128, row_cast_apply128,
    show Region1.X (V5 m ρ) c (ix2 n j) = aggK (cI m c) (src m c) (dn m c) (proj (Xf m c) (W0f m c)) n j from agg0_apply m ρ c n j]
  rfl

/-- The stretch after region 1: at node `n` the accumulated rows of the messages landing on `n`, read at their sources. -/
theorem agg1_apply (c : Dev nD) (n : Fin 50000) (k : Fin 128) :
    agg1A m ρ c (ix2 n k) = aggK (cI m c) (src m c) (dn m c) (proj (hidK (cI m c) (src m c) (dn m c) (proj (Xf m c) (W0f m c)) (B0f m c)) (W1f m c)) n k := by
  show (W7 m ρ c (Proc.devRef .tc main_v44) : S50000x128.Idx → EReal) (ix2 n k) = _
  rw [W7_v44 m ρ c]
  refine (Cert.Gcn.propagate_apply gather_S50000x128_S850000x1_S850000x128_1_0_n_n_0_1_1128 Gen.gather_S50000x128_S850000x1_S850000x128_1_0_n_n_0_1_1128_wf rfl
    scatter_S50000x128_S850000x1_S850000x128_1_0_0_1 Gen.scatter_S50000x128_S850000x1_S850000x128_1_0_0_1_wf rfl
    ![] Gen.bcast_S_S50000x128 ![] Gen.bcast_S_S850000 ![0] Gen.bcast_S850000_S850000x1_0 rfl Gen.bitsLt_bf16_f32
    (W6 m ρ c (Proc.devRef .tc main_v33)) (rowVec (m ((c : Thread nD τ).loc main_arg1))) (colVec (m ((c : Thread nD τ).loc main_arg1))) n k).trans ?_
  exact congrArg (fun f => 0 + landed (cI m c) f n) (funext fun e => feat1_apply m ρ c (src m c e) k)

/-! ## Layer 3 -/

/-- Region 2: scale the accumulated total by the node's factor, add the bias, cut at zero, project, scale by the node's factor. -/
theorem feat2_apply (c : Dev nD) (n : Fin 50000) (k : Fin 64) :
    feat2A m ρ c (ix2 n k) = dn m c n * proj (hidK (cI m c) (src m c) (dn m c) (proj (hidK (cI m c) (src m c) (dn m c) (proj (Xf m c) (W0f m c)) (B0f m c)) (W1f m c)) (B1f m c)) (W2f m c) n k := by
  have hW : W8 m ρ c (Proc.devRef .tc main_v47) = (dat2 (V7 m ρ) c).arrAt 4 cfg2.N := W8_arr m ρ c 4
  show (W8 m ρ c (Proc.devRef .tc main_v47) : S50000x64.Idx → EReal) (ix2 n k) = _
  rw [hW]
  refine (Region2.final (V7 m ρ) c n k).trans ?_
  rw [show Region2.D (V7 m ρ) c = shapeCast S50000x1 (dinvVec (m ((c : Thread nD τ).loc main_arg1))) Gen.shapeCasts_S50000_S50000x1 from W7_v45 m ρ c,
    show Region2.B (V7 m ρ) c = shapeCast S1x128 (m ((c : Thread nD τ).loc main_arg5)) Gen.shapeCasts_S128_S1x128 from W7_v46 m ρ c,
    show Region2.W (V7 m ρ) c = transpose S128x64 [1, 0] (m ((c : Thread nD τ).loc main_arg6)) Gen.transposes_S64x128_S128x64_1_0 from W7_v17 m ρ c,
    col_cast_apply, dinv_read]
  refine congrArg (dinv _ n * ·) (Finset.sum_congr rfl fun j _ => ?_)
  rw [transpose_read64, row_cast_apply128,
    show Region2.X (V7 m ρ) c (ix2 n j) = aggK (cI m c) (src m c) (dn m c) (proj (hidK (cI m c) (src m c) (dn m c) (proj (Xf m c) (W0f m c)) (B0f m c)) (W1f m c)) n j from agg1_apply m ρ c n j]
  rfl

/-- The stretch after region 2: at node `n` the accumulated rows of the messages landing on `n`, read at their sources. -/
theorem agg2_apply (c : Dev nD) (n : Fin 50000) (k : Fin 64) :
    agg2A m ρ c (ix2 n k) = aggK (cI m c) (src m c) (dn m c) (proj (hidK (cI m c) (src m c) (dn m c) (proj (hidK (cI m c) (src m c) (dn m c) (proj (Xf m c) (W0f m c)) (B0f m c)) (W1f m c)) (B1f m c)) (W2f m c)) n k := by
  show (W9 m ρ c (Proc.devRef .tc main_v58) : S50000x64.Idx → EReal) (ix2 n k) = _
  rw [W9_v58 m ρ c]
  refine (Cert.Gcn.propagate_apply gather_S50000x64_S850000x1_S850000x64_1_0_n_n_0_1_164 Gen.gather_S50000x64_S850000x1_S850000x64_1_0_n_n_0_1_164_wf rfl
    scatter_S50000x64_S850000x1_S850000x64_1_0_0_1 Gen.scatter_S50000x64_S850000x1_S850000x64_1_0_0_1_wf rfl
    ![] Gen.bcast_S_S50000x64 ![] Gen.bcast_S_S850000 ![0] Gen.bcast_S850000_S850000x1_0 rfl Gen.bitsLt_bf16_f32
    (W8 m ρ c (Proc.devRef .tc main_v47)) (rowVec (m ((c : Thread nD τ).loc main_arg1))) (colVec (m ((c : Thread nD τ).loc main_arg1))) n k).trans ?_
  exact congrArg (fun f => 0 + landed (cI m c) f n) (funext fun e => feat2_apply m ρ c (src m c e) k)

/-- Region 3: scale the last total by the node's factor and add the last bias: the three layers in the first spelling. -/
theorem value (c : Dev nD) (n : Fin 50000) (k : Fin 64) :
    outA m ρ c (ix2 n k)
      = outK (cI m c) (src m c) (dn m c) (Xf m c) (W0f m c) (B0f m c) (W1f m c) (B1f m c) (W2f m c) (B2f m c) n k := by
  have hW : W10 m ρ c (Proc.devRef .tc main_v61) = (dat3 (V9 m ρ) c).arrAt 3 cfg3.N := W10_arr m ρ c 3
  show (W10 m ρ c (Proc.devRef .tc main_v61) : S50000x64.Idx → EReal) (ix2 n k) = _
  rw [hW]
  refine (Region3.final (V9 m ρ) c n k).trans ?_
  rw [show Region3.D (V9 m ρ) c = shapeCast S50000x1 (dinvVec (m ((c : Thread nD τ).loc main_arg1))) Gen.shapeCasts_S50000_S50000x1 from W9_v59 m ρ c,
    show Region3.B (V9 m ρ) c = shapeCast S1x64 (m ((c : Thread nD τ).loc main_arg7)) Gen.shapeCasts_S64_S1x64 from W9_v60 m ρ c,
    col_cast_apply, dinv_read, row_cast_apply64,
    show Region3.X (V9 m ρ) c (ix2 n k) = aggK (cI m c) (src m c) (dn m c) (proj (hidK (cI m c) (src m c) (dn m c) (proj (hidK (cI m c) (src m c) (dn m c) (proj (Xf m c) (W0f m c)) (B0f m c)) (W1f m c)) (B1f m c)) (W2f m c)) n k from agg2_apply m ρ c n k]
  rfl

end Cert.KernelIdeal.KValue

end
-- ==== Proof.RefValue.lean ====
/-
  The reference program's result, read at a node and an output feature.

  The program holds the 850000 messages' endpoints as a source vector and a target vector (the edges followed by one
  self-loop per node). From the target vector it computes the node factor: the count of messages landing on a node,
  accumulated from zero as a sum of ones (`deg_at`), and its reciprocal square root where the count is positive, else
  zero (`dinv_at`). A message's weight is the product of the factors of the two nodes its endpoints read, the source's
  first (`gatherDinv_at`, `norm_at`). Then three times: the features through a transposed weight matrix — entry
  `(i, k)` is the sum over `j` of feature `(i, j)` times weight `(k, j)` (`proj1_at`, `proj2_at`, `proj3_at`) —, every
  message's source row scaled by the message's weight and accumulated from zero at the message's target
  (`agg_at` for abstract columns, from a zero splat read at an entry, `zeros_at`, and a column spread over the features,
  `spread_apply`; `aggP_at` with the program's own columns, `tcol_at`, `ncol_at`, `icol_at`; `agg1_at`, `agg2_at`,
  `agg3_at` for the three layers), a bias row added (`bias1_at`, `bias2_at`, `bias3_at`) and, after the first two, the
  maximum with zero (`hid1_at`, `hid2_at`). Read at an entry the result is `Cert.Gcn.outR` of the graph data
  (`ref_value`), and so is the whole result array of a run (`res_eq`).
-/
import proofs.«101799_j10368051053156_2_alg».proof.Proof.RefRead
import proofs.«101799_j10368051053156_2_alg».proof.Proof.GcnGraph

noncomputable section

open scoped BigOperators

namespace Cert.ReferenceIdeal.RefValue

open Cert.ReferenceIdeal Cert.ReferenceIdeal.Gen Idealize.ShloMosaic Idealize.ShloMosaic.ValueIdx Cert.Edges Cert.Gcn
open Idealize.ShloMosaic.TcCoe Idealize.SL.Sem Idealize.ShloMosaic.StableHlo

/-! ## The node factor and the weight of a message -/

/-- The accumulated count of landing messages at node `n`. -/
theorem deg_at (ei : IVec S2x800000 32) (n : Fin 50000) :
    ReadP.val_main_v10 (F := Ideal) ei (ix1 n) = deg (tgt (ReadP.val_main_v6 (F := Ideal) ei)) n :=
  degVec_apply scatter_S50000_S850000x1_S850000_n_0_0_1 Facts₀.scatter_S50000_S850000x1_S850000_n_0_0_1_wf rfl
    ![] Facts₀.bcast_S_S50000 Facts₀.bcast_S_S850000 ![0] Facts₀.bcast_S850000_S850000x1_0 rfl
    (ReadP.val_main_v6 (F := Ideal) ei) n

/-- The node factor at node `n`. -/
theorem dinv_at (ei : IVec S2x800000 32) (n : Fin 50000) :
    ReadP.val_main_v14 (F := Ideal) ei (ix1 n) = dinv (tgt (ReadP.val_main_v6 (F := Ideal) ei)) n :=
  dinvVec_apply ![] Facts₀.bcast_S_S50000 (ReadP.val_main_v6 (F := Ideal) ei) (ReadP.val_main_v10 (F := Ideal) ei)
    (deg_at ei) n

/-- The node factor read through an endpoint vector `v`, at message `e`: the factor of the node `v` reads there. -/
theorem gatherDinv_at (ei : IVec S2x800000 32) (v : IVec S850000 32) (e : Fin 850000) :
    Host.gather gather_S50000_S850000x1_S850000_n_0_n_n_0_1_1 (ReadP.val_main_v14 (F := Ideal) ei)
        (broadcastInDim S850000x1 ![0] Facts₀.bcast_S850000_S850000x1_0
          (select (cmpi .slt v (broadcastInDim S850000 ![] Facts₀.bcast_S_S850000 (constantI S_ 32 0#32)))
            (addi v (broadcastInDim S850000 ![] Facts₀.bcast_S_S850000 (constantI S_ 32 50000#32))) v)) (ix1 e)
      = dinv (tgt (ReadP.val_main_v6 (F := Ideal) ei)) (nodeOf v e) := by
  have hg : gather_S50000_S850000x1_S850000_n_0_n_n_0_1_1
      = vecGather 50000 850000 Facts₀.gather_S50000_S850000x1_S850000_n_0_n_n_0_1_1_wf := rfl
  rw [hg, vecGather_apply (N := 50000) (by decide),
    wrapCol_apply ![] Facts₀.bcast_S_S850000 ![0] Facts₀.bcast_S850000_S850000x1_0 rfl]
  exact dinv_at ei _

/-- The weight of message `e`: the product of the factors of the nodes its two endpoints read. -/
theorem norm_at (ei : IVec S2x800000 32) (e : Fin 850000) :
    ReadP.val_main_v29 (F := Ideal) ei (ix1 e)
      = dinv (tgt (ReadP.val_main_v6 (F := Ideal) ei)) (nodeOf (ReadP.val_main_v3 (F := Ideal) ei) e)
        * dinv (tgt (ReadP.val_main_v6 (F := Ideal) ei)) (nodeOf (ReadP.val_main_v6 (F := Ideal) ei) e) := by
  unfold ReadP.val_main_v29 ReadP.val_main_v21 ReadP.val_main_v28 ReadP.val_main_v20 ReadP.val_main_v27
    ReadP.val_main_v19 ReadP.val_main_v26 ReadP.val_main_v16 ReadP.val_main_v23 ReadP.val_main_v18 ReadP.val_main_v25
    ReadP.val_main_v15 ReadP.val_main_v22 ReadP.val_main_v17 ReadP.val_main_v24
    ReadP.val_main_c ReadP.val_main_c_3 ReadP.val_main_c_4 ReadP.val_main_c_5
  rw [mulf_apply, gatherDinv_at, gatherDinv_at]

/-! ## One accumulation of weighted rows -/

/-- A scalar spread over a matrix, read at an entry: the zero word reads zero. -/
theorem zeros_at {C : ℕ} (d0 : Fin 0 → Fin 2) (hZ : Shape.BroadcastsInDim ⟨0, ![]⟩ ⟨2, ![50000, C]⟩ d0)
    (n : Fin 50000) (k : Fin C) :
    broadcastInDim ⟨2, ![50000, C]⟩ d0 hZ (constant (F := Ideal) ⟨0, ![]⟩ .f32 0x00000000#32) (ix2 n k) = 0 :=
  (broadcastInDim_apply d0 hZ _ (ix2 n k) ix0 (fun a => a.elim0)).trans Ideal.ofBits_zero_f32

/-- A one-column matrix spread over `C` columns, read at `(e, k)`. -/
theorem spread_apply {α : Type} {C : ℕ} (d2 : Fin 2 → Fin 2)
    (hB : Shape.BroadcastsInDim ⟨2, ![850000, 1]⟩ ⟨2, ![850000, C]⟩ d2) (hd2 : d2 0 = 0)
    (v : (⟨2, ![850000, 1]⟩ : Shape).Idx → α) (e : Fin 850000) (k : Fin C) :
    broadcastInDim ⟨2, ![850000, C]⟩ d2 hB v (ix2 e k) = v (ix2 e 0) := by
  refine broadcastInDim_apply d2 hB v (ix2 e k) (ix2 e 0) ?_
  intro a
  match a with
  | ⟨0, _⟩ =>
    show e.val = if (850000 : ℕ) = 1 then 0 else ((ix2 e k : (⟨2, ![850000, C]⟩ : Shape).Idx) (d2 0)).val
    rw [hd2, if_neg (by decide)]
  | ⟨1, _⟩ =>
    show (0 : ℕ) = if (1 : ℕ) = 1 then 0 else _
    rw [if_pos rfl]

/-- Rows of `u` read through an index column, each scaled by its message's weight, accumulated at the target column's
    nodes into zeros: at `(n, k)` the second spelling's aggregate. -/
theorem agg_at {C : ℕ}
    (gwf : GatherDims.WF ⟨2, ![50000, C]⟩ ⟨2, ![850000, 1]⟩ ⟨2, ![850000, C]⟩ [1] [0] [] [0] [] 1 ![1, C])
    (swf : ScatterDims.WF ⟨2, ![50000, C]⟩ ⟨2, ![850000, 1]⟩ ⟨2, ![850000, C]⟩ [1] [0] [0] 1)
    (d2 : Fin 2 → Fin 2) (hB : Shape.BroadcastsInDim ⟨2, ![850000, 1]⟩ ⟨2, ![850000, C]⟩ d2) (hd2 : d2 0 = 0)
    (cI : Fin 850000 → ℤ) (s g : Fin 850000 → Fin 50000) (d : Fin 50000 → EReal)
    (z : FVec Ideal ⟨2, ![50000, C]⟩ .f32) (hz : ∀ n k, z (ix2 n k) = 0)
    (tc : IVec ⟨2, ![850000, 1]⟩ 32) (htc : ∀ e, (tc (ix2 e 0)).toInt = cI e)
    (nc : FVec Ideal ⟨2, ![850000, 1]⟩ .f32) (hnc : ∀ e, nc (ix2 e 0) = d (s e) * d (g e))
    (ic : IVec ⟨2, ![850000, 1]⟩ 32) (hic : ∀ e, clampRow 50000 (by decide) (ic (ix2 e 0)) = s e)
    (u : FVec Ideal ⟨2, ![50000, C]⟩ .f32) (n : Fin 50000) (k : Fin C) :
    Host.scatterAdd (F := Ideal) (rowsScatter 50000 C 850000 swf) z tc
        (mulf (broadcastInDim ⟨2, ![850000, C]⟩ d2 hB nc) (Host.gather (rowsGather 50000 C 850000 gwf) u ic)) (ix2 n k)
      = aggR cI s g d (fun i j => u (ix2 i j)) n k := by
  rw [rowsScatterAdd_apply, hz]
  unfold aggR landed
  refine congrArg (fun t => (0 : EReal) + t) (Finset.sum_congr rfl fun e _ => ?_)
  rw [htc e]
  refine if_congr Iff.rfl ?_ rfl
  rw [mulf_apply, spread_apply d2 hB hd2, rowsGather_apply (N := 50000) (by decide), hic e, hnc e]

/-! ## The graph data of the program, and the program's accumulation -/

/-- The signed targets of the messages. -/
abbrev cI (ei : IVec S2x800000 32) : Fin 850000 → ℤ := tgt (ReadP.val_main_v6 (F := Ideal) ei)
/-- The source node a message's feature row is read at. -/
abbrev src (ei : IVec S2x800000 32) : Fin 850000 → Fin 50000 := nodeOf (ReadP.val_main_v3 (F := Ideal) ei)
/-- The target of a message read as a node. -/
abbrev dst (ei : IVec S2x800000 32) : Fin 850000 → Fin 50000 := nodeOf (ReadP.val_main_v6 (F := Ideal) ei)
/-- The node factor. -/
abbrev fac (ei : IVec S2x800000 32) : Fin 50000 → EReal := dinv (tgt (ReadP.val_main_v6 (F := Ideal) ei))

/-- The index column the gathers of feature rows are given: the source vector, negative numbers counted from the end. -/
abbrev srcCol (ei : IVec S2x800000 32) : IVec S850000x1 32 :=
  broadcastInDim S850000x1 ![0] Facts₀.bcast_S850000_S850000x1_0
    (select (cmpi .slt (ReadP.val_main_v3 (F := Ideal) ei)
        (broadcastInDim S850000 ![] Facts₀.bcast_S_S850000 (constantI S_ 32 0#32)))
      (addi (ReadP.val_main_v3 (F := Ideal) ei)
        (broadcastInDim S850000 ![] Facts₀.bcast_S_S850000 (constantI S_ 32 50000#32)))
      (ReadP.val_main_v3 (F := Ideal) ei))

/-- The target column, read signed at message `e`. -/
theorem tcol_at (ei : IVec S2x800000 32) (e : Fin 850000) :
    (broadcastInDim S850000x1 ![0] Facts₀.bcast_S850000_S850000x1_0 (ReadP.val_main_v6 (F := Ideal) ei) (ix2 e 0)).toInt
      = cI ei e := by
  rw [column_apply ![0] Facts₀.bcast_S850000_S850000x1_0 rfl]
  rfl

/-- The weight column at message `e`. -/
theorem ncol_at (ei : IVec S2x800000 32) (e : Fin 850000) :
    broadcastInDim S850000x1 ![0] Facts₀.bcast_S850000_S850000x1_0 (ReadP.val_main_v29 (F := Ideal) ei) (ix2 e 0)
      = fac ei (src ei e) * fac ei (dst ei e) := by
  rw [column_apply ![0] Facts₀.bcast_S850000_S850000x1_0 rfl, norm_at]

/-- The row the gather of feature rows reads for message `e`. -/
theorem icol_at (ei : IVec S2x800000 32) (e : Fin 850000) :
    clampRow 50000 (by decide) (srcCol ei (ix2 e 0)) = src ei e := by
  unfold srcCol
  rw [wrapCol_apply ![] Facts₀.bcast_S_S850000 ![0] Facts₀.bcast_S850000_S850000x1_0 rfl]
  rfl

/-- The program's accumulation of the weighted rows of a feature matrix `u`, with the program's own dimension records. -/
theorem aggP_at {C : ℕ}
    (gd : GatherDims ⟨2, ![50000, C]⟩ ⟨2, ![850000, 1]⟩ ⟨2, ![850000, C]⟩)
    (gwf : GatherDims.WF ⟨2, ![50000, C]⟩ ⟨2, ![850000, 1]⟩ ⟨2, ![850000, C]⟩ [1] [0] [] [0] [] 1 ![1, C])
    (hgd : gd = rowsGather 50000 C 850000 gwf)
    (sd : ScatterDims ⟨2, ![50000, C]⟩ ⟨2, ![850000, 1]⟩ ⟨2, ![850000, C]⟩)
    (swf : ScatterDims.WF ⟨2, ![50000, C]⟩ ⟨2, ![850000, 1]⟩ ⟨2, ![850000, C]⟩ [1] [0] [0] 1)
    (hsd : sd = rowsScatter 50000 C 850000 swf)
    (d0 : Fin 0 → Fin 2) (hZ : Shape.BroadcastsInDim ⟨0, ![]⟩ ⟨2, ![50000, C]⟩ d0)
    (d2 : Fin 2 → Fin 2) (hB : Shape.BroadcastsInDim ⟨2, ![850000, 1]⟩ ⟨2, ![850000, C]⟩ d2) (hd2 : d2 0 = 0)
    (ei : IVec S2x800000 32) (u : FVec Ideal ⟨2, ![50000, C]⟩ .f32) (n : Fin 50000) (k : Fin C) :
    Host.scatterAdd (F := Ideal) sd
        (broadcastInDim ⟨2, ![50000, C]⟩ d0 hZ (constant (F := Ideal) S_ .f32 0x00000000#32))
        (broadcastInDim S850000x1 ![0] Facts₀.bcast_S850000_S850000x1_0 (ReadP.val_main_v6 (F := Ideal) ei))
        (mulf (broadcastInDim ⟨2, ![850000, C]⟩ d2 hB
            (broadcastInDim S850000x1 ![0] Facts₀.bcast_S850000_S850000x1_0 (ReadP.val_main_v29 (F := Ideal) ei)))
          (Host.gather gd u (srcCol ei))) (ix2 n k)
      = aggR (cI ei) (src ei) (dst ei) (fac ei) (fun i j => u (ix2 i j)) n k := by
  subst hgd hsd
  exact agg_at gwf swf d2 hB hd2 (cI ei) (src ei) (dst ei) (fac ei) _ (zeros_at d0 hZ) _ (tcol_at ei) _ (ncol_at ei)
    _ (icol_at ei) u n k

/-! ## The first layer -/

/-- The input features through the first weight matrix. -/
theorem proj1_at (x : FVec Ideal S50000x128 .f32) (w0 : FVec Ideal S128x128 .f32) (i : Fin 50000) (k : Fin 128) :
    ReadP.val_main_v31 (F := Ideal) x w0 (ix2 i k)
      = proj (fun i j => x (ix2 i j)) (fun o j => w0 (ix2 o j)) i k := by
  rw [ReadP.val_main_v31_apply]
  unfold proj
  refine Finset.sum_congr rfl fun j _ => ?_
  have e1 : ReadP.lidx_main_v31 (ix2 i k) j = ix2 i j :=
    funext fun a => Fin.ext (by match a with | ⟨0, _⟩ => rfl | ⟨1, _⟩ => rfl)
  have e2 : ReadP.idx_main_v30 (ReadP.ridx_main_v31 (ix2 i k) j) = ix2 k j :=
    funext fun a => Fin.ext (by match a with | ⟨0, _⟩ => rfl | ⟨1, _⟩ => rfl)
  rw [ReadP.val_main_v30_apply, e1, e2]

/-- The first bias row at `(n, k)`. -/
theorem bias1_at (b0 : FVec Ideal S128 .f32) (n : Fin 50000) (k : Fin 128) :
    ReadP.val_main_v46 (F := Ideal) b0 (ix2 n k) = b0 (ix1 k) := by
  rw [ReadP.val_main_v46_apply, ReadP.val_main_v45_apply]
  exact congrArg b0 (funext fun a => Fin.ext (by match a with | ⟨0, _⟩ => rfl))

/-- The hidden features after the first layer, as the second spelling has them. -/
def feat1 (x : FVec Ideal S50000x128 .f32) (ei : IVec S2x800000 32) (w0 : FVec Ideal S128x128 .f32)
    (b0 : FVec Ideal S128 .f32) : Fin 50000 → Fin 128 → EReal :=
  hidR (cI ei) (src ei) (dst ei) (fac ei) (proj (fun i j => x (ix2 i j)) (fun o j => w0 (ix2 o j))) (fun o => b0 (ix1 o))

/-- The first accumulation. -/
theorem agg1_at (x : FVec Ideal S50000x128 .f32) (ei : IVec S2x800000 32) (w0 : FVec Ideal S128x128 .f32)
    (n : Fin 50000) (k : Fin 128) :
    ReadP.val_main_v44 (F := Ideal) x ei w0 (ix2 n k)
      = aggR (cI ei) (src ei) (dst ei) (fac ei) (proj (fun i j => x (ix2 i j)) (fun o j => w0 (ix2 o j))) n k := by
  have hu : (fun i j => ReadP.val_main_v31 (F := Ideal) x w0 (ix2 i j))
      = proj (fun i j => x (ix2 i j)) (fun o j => w0 (ix2 o j)) :=
    funext fun i => funext fun j => proj1_at x w0 i j
  unfold ReadP.val_main_v44 ReadP.val_main_v42 ReadP.val_main_cst_8 ReadP.val_main_v43 ReadP.val_main_v41
    ReadP.val_main_v40 ReadP.val_main_v32 ReadP.val_main_v39 ReadP.val_main_v38 ReadP.val_main_v37
    ReadP.val_main_v34 ReadP.val_main_v36 ReadP.val_main_v33 ReadP.val_main_v35 ReadP.val_main_c_6 ReadP.val_main_c_7
  rw [← hu]
  exact aggP_at gather_S50000x128_S850000x1_S850000x128_1_0_n_n_0_1_1128
    Facts₀.gather_S50000x128_S850000x1_S850000x128_1_0_n_n_0_1_1128_wf rfl
    scatter_S50000x128_S850000x1_S850000x128_1_0_0_1 Facts₀.scatter_S50000x128_S850000x1_S850000x128_1_0_0_1_wf rfl
    ![] Facts₀.bcast_S_S50000x128 ![0, 1] Facts₀.bcast_S850000x1_S850000x128_0_1 rfl ei
    (ReadP.val_main_v31 (F := Ideal) x w0) n k

/-- The first layer at `(n, k)`. -/
theorem hid1_at (x : FVec Ideal S50000x128 .f32) (ei : IVec S2x800000 32) (w0 : FVec Ideal S128x128 .f32)
    (b0 : FVec Ideal S128 .f32) (n : Fin 50000) (k : Fin 128) :
    ReadP.val_main_v48 (F := Ideal) x ei w0 b0 (ix2 n k) = feat1 x ei w0 b0 n k := by
  unfold ReadP.val_main_v48 ReadP.val_main_v47 ReadP.val_main_call1_v0 ReadP.val_main_call1_cst
  rw [maximumf_apply, addf_apply, agg1_at, bias1_at, zeros_at]
  rfl

/-! ## The second layer -/

/-- The first hidden features through the second weight matrix. -/
theorem proj2_at (x : FVec Ideal S50000x128 .f32) (ei : IVec S2x800000 32) (w0 : FVec Ideal S128x128 .f32)
    (b0 : FVec Ideal S128 .f32) (w1 : FVec Ideal S128x128 .f32) (i : Fin 50000) (k : Fin 128) :
    ReadP.val_main_v50 (F := Ideal) x ei w0 b0 w1 (ix2 i k)
      = proj (feat1 x ei w0 b0) (fun o j => w1 (ix2 o j)) i k := by
  rw [ReadP.val_main_v50_apply]
  unfold proj
  refine Finset.sum_congr rfl fun j _ => ?_
  have e1 : ReadP.lidx_main_v50 (ix2 i k) j = ix2 i j :=
    funext fun a => Fin.ext (by match a with | ⟨0, _⟩ => rfl | ⟨1, _⟩ => rfl)
  have e2 : ReadP.idx_main_v49 (ReadP.ridx_main_v50 (ix2 i k) j) = ix2 k j :=
    funext fun a => Fin.ext (by match a with | ⟨0, _⟩ => rfl | ⟨1, _⟩ => rfl)
  rw [ReadP.val_main_v49_apply, e1, e2, hid1_at]

/-- The second bias row at `(n, k)`. -/
theorem bias2_at (b1 : FVec Ideal S128 .f32) (n : Fin 50000) (k : Fin 128) :
    ReadP.val_main_v65 (F := Ideal) b1 (ix2 n k) = b1 (ix1 k) := by
  rw [ReadP.val_main_v65_apply, ReadP.val_main_v64_apply]
  exact congrArg b1 (funext fun a => Fin.ext (by match a with | ⟨0, _⟩ => rfl))

/-- The hidden features after the second layer, as the second spelling has them. -/
def feat2 (x : FVec Ideal S50000x128 .f32) (ei : IVec S2x800000 32) (w0 : FVec Ideal S128x128 .f32)
    (b0 : FVec Ideal S128 .f32) (w1 : FVec Ideal S128x128 .f32) (b1 : FVec Ideal S128 .f32) :
    Fin 50000 → Fin 128 → EReal :=
  hidR (cI ei) (src ei) (dst ei) (fac ei) (proj (feat1 x ei w0 b0) (fun o j => w1 (ix2 o j))) (fun o => b1 (ix1 o))

/-- The second accumulation. -/
theorem agg2_at (x : FVec Ideal S50000x128 .f32) (ei : IVec S2x800000 32) (w0 : FVec Ideal S128x128 .f32)
    (b0 : FVec Ideal S128 .f32) (w1 : FVec Ideal S128x128 .f32) (n : Fin 50000) (k : Fin 128) :
    ReadP.val_main_v63 (F := Ideal) x ei w0 b0 w1 (ix2 n k)
      = aggR (cI ei) (src ei) (dst ei) (fac ei) (proj (feat1 x ei w0 b0) (fun o j => w1 (ix2 o j))) n k := by
  have hu : (fun i j => ReadP.val_main_v50 (F := Ideal) x ei w0 b0 w1 (ix2 i j))
      = proj (feat1 x ei w0 b0) (fun o j => w1 (ix2 o j)) :=
    funext fun i => funext fun j => proj2_at x ei w0 b0 w1 i j
  unfold ReadP.val_main_v63 ReadP.val_main_v61 ReadP.val_main_cst_11 ReadP.val_main_v62 ReadP.val_main_v60
    ReadP.val_main_v59 ReadP.val_main_v51 ReadP.val_main_v58 ReadP.val_main_v57 ReadP.val_main_v56
    ReadP.val_main_v53 ReadP.val_main_v55 ReadP.val_main_v52 ReadP.val_main_v54 ReadP.val_main_c_9 ReadP.val_main_c_10
  rw [← hu]
  exact aggP_at gather_S50000x128_S850000x1_S850000x128_1_0_n_n_0_1_1128
    Facts₀.gather_S50000x128_S850000x1_S850000x128_1_0_n_n_0_1_1128_wf rfl
    scatter_S50000x128_S850000x1_S850000x128_1_0_0_1 Facts₀.scatter_S50000x128_S850000x1_S850000x128_1_0_0_1_wf rfl
    ![] Facts₀.bcast_S_S50000x128 ![0, 1] Facts₀.bcast_S850000x1_S850000x128_0_1 rfl ei
    (ReadP.val_main_v50 (F := Ideal) x ei w0 b0 w1) n k

/-- The second layer at `(n, k)`. -/
theorem hid2_at (x : FVec Ideal S50000x128 .f32) (ei : IVec S2x800000 32) (w0 : FVec Ideal S128x128 .f32)
    (b0 : FVec Ideal S128 .f32) (w1 : FVec Ideal S128x128 .f32) (b1 : FVec Ideal S128 .f32)
    (n : Fin 50000) (k : Fin 128) :
    ReadP.val_main_v67 (F := Ideal) x ei w0 b0 w1 b1 (ix2 n k) = feat2 x ei w0 b0 w1 b1 n k := by
  unfold ReadP.val_main_v67 ReadP.val_main_v66 ReadP.val_main_call2_v0 ReadP.val_main_call2_cst
  rw [maximumf_apply, addf_apply, agg2_at, bias2_at, zeros_at]
  rfl

/-! ## The last layer -/

/-- The second hidden features through the last weight matrix. -/
theorem proj3_at (x : FVec Ideal S50000x128 .f32) (ei : IVec S2x800000 32) (w0 : FVec Ideal S128x128 .f32)
    (b0 : FVec Ideal S128 .f32) (w1 : FVec Ideal S128x128 .f32) (b1 : FVec Ideal S128 .f32)
    (w2 : FVec Ideal S64x128 .f32) (i : Fin 50000) (k : Fin 64) :
    ReadP.val_main_v69 (F := Ideal) x ei w0 b0 w1 b1 w2 (ix2 i k)
      = proj (feat2 x ei w0 b0 w1 b1) (fun o j => w2 (ix2 o j)) i k := by
  rw [ReadP.val_main_v69_apply]
  unfold proj
  refine Finset.sum_congr rfl fun j _ => ?_
  have e1 : ReadP.lidx_main_v69 (ix2 i k) j = ix2 i j :=
    funext fun a => Fin.ext (by match a with | ⟨0, _⟩ => rfl | ⟨1, _⟩ => rfl)
  have e2 : ReadP.idx_main_v68 (ReadP.ridx_main_v69 (ix2 i k) j) = ix2 k j :=
    funext fun a => Fin.ext (by match a with | ⟨0, _⟩ => rfl | ⟨1, _⟩ => rfl)
  rw [ReadP.val_main_v68_apply, e1, e2, hid2_at]

/-- The last bias row at `(n, k)`. -/
theorem bias3_at (b2 : FVec Ideal S64 .f32) (n : Fin 50000) (k : Fin 64) :
    ReadP.val_main_v84 (F := Ideal) b2 (ix2 n k) = b2 (ix1 k) := by
  rw [ReadP.val_main_v84_apply, ReadP.val_main_v83_apply]
  exact congrArg b2 (funext fun a => Fin.ext (by match a with | ⟨0, _⟩ => rfl))

/-- The last accumulation. -/
theorem agg3_at (x : FVec Ideal S50000x128 .f32) (ei : IVec S2x800000 32) (w0 : FVec Ideal S128x128 .f32)
    (b0 : FVec Ideal S128 .f32) (w1 : FVec Ideal S128x128 .f32) (b1 : FVec Ideal S128 .f32)
    (w2 : FVec Ideal S64x128 .f32) (n : Fin 50000) (k : Fin 64) :
    ReadP.val_main_v82 (F := Ideal) x ei w0 b0 w1 b1 w2 (ix2 n k)
      = aggR (cI ei) (src ei) (dst ei) (fac ei) (proj (feat2 x ei w0 b0 w1 b1) (fun o j => w2 (ix2 o j))) n k := by
  have hu : (fun i j => ReadP.val_main_v69 (F := Ideal) x ei w0 b0 w1 b1 w2 (ix2 i j))
      = proj (feat2 x ei w0 b0 w1 b1) (fun o j => w2 (ix2 o j)) :=
    funext fun i => funext fun j => proj3_at x ei w0 b0 w1 b1 w2 i j
  unfold ReadP.val_main_v82 ReadP.val_main_v80 ReadP.val_main_cst_14 ReadP.val_main_v81 ReadP.val_main_v79
    ReadP.val_main_v78 ReadP.val_main_v70 ReadP.val_main_v77 ReadP.val_main_v76 ReadP.val_main_v75
    ReadP.val_main_v72 ReadP.val_main_v74 ReadP.val_main_v71 ReadP.val_main_v73 ReadP.val_main_c_12 ReadP.val_main_c_13
  rw [← hu]
  exact aggP_at gather_S50000x64_S850000x1_S850000x64_1_0_n_n_0_1_164
    Facts₀.gather_S50000x64_S850000x1_S850000x64_1_0_n_n_0_1_164_wf rfl
    scatter_S50000x64_S850000x1_S850000x64_1_0_0_1 Facts₀.scatter_S50000x64_S850000x1_S850000x64_1_0_0_1_wf rfl
    ![] Facts₀.bcast_S_S50000x64 ![0, 1] Facts₀.bcast_S850000x1_S850000x64_0_1 rfl ei
    (ReadP.val_main_v69 (F := Ideal) x ei w0 b0 w1 b1 w2) n k

/-! ## The result -/

/-- The reference program's result at node `n` and output feature `k` is the second spelling of the three layers on the
    program's graph data. -/
theorem ref_value (x : FVec Ideal S50000x128 .f32) (ei : IVec S2x800000 32) (w0 : FVec Ideal S128x128 .f32)
    (b0 : FVec Ideal S128 .f32) (w1 : FVec Ideal S128x128 .f32) (b1 : FVec Ideal S128 .f32)
    (w2 : FVec Ideal S64x128 .f32) (b2 : FVec Ideal S64 .f32) (n : Fin 50000) (k : Fin 64) :
    ReadP.val_main_v85 (F := Ideal) x ei w0 b0 w1 b1 w2 b2 (ix2 n k)
      = Cert.Gcn.outR (Cert.Gcn.tgt (ReadP.val_main_v6 (F := Ideal) ei))
          (Cert.Gcn.nodeOf (ReadP.val_main_v3 (F := Ideal) ei)) (Cert.Gcn.nodeOf (ReadP.val_main_v6 (F := Ideal) ei))
          (Cert.Gcn.dinv (Cert.Gcn.tgt (ReadP.val_main_v6 (F := Ideal) ei)))
          (fun i j => x (ix2 i j)) (fun o j => w0 (ix2 o j)) (fun o => b0 (ix1 o)) (fun o j => w1 (ix2 o j))
          (fun o => b1 (ix1 o)) (fun o j => w2 (ix2 o j)) (fun o => b2 (ix1 o)) n k := by
  unfold ReadP.val_main_v85
  rw [addf_apply, agg3_at, bias3_at]
  rfl

/-- The result array of a run of the reference program, as a function of the index: the second spelling of the three
    layers on the graph data read off the launch contents of the arguments. -/
theorem res_eq (m' : (ℓ : Loc nD τ sig) → Buf (Elt Ideal) ℓ) (c : Dev nD) :
    ValueP.res_main_v85 m' c = fun i : S50000x64.Idx =>
      Cert.Gcn.outR (Cert.Gcn.tgt (ReadP.val_main_v6 (F := Ideal) (m' ((c.tc : Thread nD τ).loc main_arg1))))
        (Cert.Gcn.nodeOf (ReadP.val_main_v3 (F := Ideal) (m' ((c.tc : Thread nD τ).loc main_arg1))))
        (Cert.Gcn.nodeOf (ReadP.val_main_v6 (F := Ideal) (m' ((c.tc : Thread nD τ).loc main_arg1))))
        (Cert.Gcn.dinv (Cert.Gcn.tgt (ReadP.val_main_v6 (F := Ideal) (m' ((c.tc : Thread nD τ).loc main_arg1)))))
        (fun a j => (m' ((c.tc : Thread nD τ).loc main_arg0) : FVec Ideal S50000x128 .f32) (ix2 a j))
        (fun o j => (m' ((c.tc : Thread nD τ).loc main_arg2) : FVec Ideal S128x128 .f32) (ix2 o j))
        (fun o => (m' ((c.tc : Thread nD τ).loc main_arg3) : FVec Ideal S128 .f32) (ix1 o))
        (fun o j => (m' ((c.tc : Thread nD τ).loc main_arg4) : FVec Ideal S128x128 .f32) (ix2 o j))
        (fun o => (m' ((c.tc : Thread nD τ).loc main_arg5) : FVec Ideal S128 .f32) (ix1 o))
        (fun o j => (m' ((c.tc : Thread nD τ).loc main_arg6) : FVec Ideal S64x128 .f32) (ix2 o j))
        (fun o => (m' ((c.tc : Thread nD τ).loc main_arg7) : FVec Ideal S64 .f32) (ix1 o))
        ⟨(i 0).val, idx2_lt0 i⟩ ⟨(i 1).val, idx2_lt1 i⟩ := by
  refine (ReadP.val_main_v85_eq m' c).trans ?_
  funext i
  obtain ⟨n, k, rfl⟩ : ∃ (n : Fin 50000) (k : Fin 64), i = ix2 n k := ⟨i 0, i 1, eq_ix2 i⟩
  exact ref_value _ _ _ _ _ _ _ _ n k

end Cert.ReferenceIdeal.RefValue

end
-- ==== Proof.Bridge.lean ====
/-
  The certificate's conjuncts, assembled.

  Both idealized programs compute three layers of a graph convolution with symmetric degree normalisation over the same
  graph data: the 850000 messages (800000 edges and one self-loop per node) with their source and target nodes read off the
  edge array, and the node factor, the reciprocal square root of the number of messages landing on a node. The kernel's
  program scales the projected features by the source node's factor before they are sent and the accumulated total by the
  receiving node's factor afterwards (`Cert.Gcn.outK`); the reference scales every message by the product of its two end
  factors (`Cert.Gcn.outR`). Entry by entry the kernel's result array is `outK` of the launch memory's arguments and the
  reference's is `outR` of its own; on memories that agree on the arguments the two index vectors are the same terms, every
  node factor is a nonnegative real and a message landing on a node reads that node, so the two spellings agree
  (`Cert.Gcn.outK_eq_outR`): the results are equal as extended reals. The frames are the generated ones; the reference's is
  its run with the result dropped.
-/
import proofs.«101799_j10368051053156_2_alg».proof.Defs
import proofs.«101799_j10368051053156_2_alg».proof.Proof.Gen.Kernel.Frame
import proofs.«101799_j10368051053156_2_alg».proof.Proof.Gen.KernelIdeal.Frame
import proofs.«101799_j10368051053156_2_alg».proof.Proof.Gen.ReferenceIdeal
import proofs.«101799_j10368051053156_2_alg».proof.Proof.Gen.Pre_finite_inputs
import proofs.«101799_j10368051053156_2_alg».proof.Proof.KernelRun
import proofs.«101799_j10368051053156_2_alg».proof.Proof.RefRun
import proofs.«101799_j10368051053156_2_alg».proof.Proof.RefRead
import proofs.«101799_j10368051053156_2_alg».proof.Proof.GcnSpec
import proofs.«101799_j10368051053156_2_alg».proof.Proof.GcnGraph
import Idealize.ShloMosaic.Lib.ValueIdx
import proofs.«101799_j10368051053156_2_alg».proof.Proof.KernelValue
import proofs.«101799_j10368051053156_2_alg».proof.Proof.RefValue

set_option maxRecDepth 16384

noncomputable section

namespace Cert.Proof.Bridge

open Idealize.ShloMosaic Idealize.ShloMosaic.TcCoe Idealize.ShloMosaic.ValueIdx Idealize.SL.Sem
open Cert.KernelIdeal.KValue

/-! ## The frames -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation: nothing to preserve. -/
theorem preserves : Cert.preserves_Kernel_KernelIdeal := trivial

/-! ## The two programs' index vectors are the same terms -/

/-- The messages' sources, as the kernel's program and as the reference compute them from the edge array. -/
theorem rowVec_eq (ei : IVec Cert.KernelIdeal.S2x800000 32) :
    Cert.KernelIdeal.HostValue.rowVec ei = Cert.ReferenceIdeal.ReadP.val_main_v3 (F := Ideal) ei := rfl

/-- The messages' targets, likewise. -/
theorem colVec_eq (ei : IVec Cert.KernelIdeal.S2x800000 32) :
    Cert.KernelIdeal.HostValue.colVec ei = Cert.ReferenceIdeal.ReadP.val_main_v6 (F := Ideal) ei := rfl

/-! ## The results agree -/

/-- The kernel's result array as a function of its launch memory: the first spelling of the three layers, entry by entry. -/
def outArr (m : (ℓ : Loc Cert.KernelIdeal.nD Cert.KernelIdeal.τ Cert.KernelIdeal.sig) → Buf (Elt Ideal) ℓ) (c : Dev Cert.KernelIdeal.nD) :
    Cert.KernelIdeal.S50000x64.Idx → EReal := fun i =>
  Cert.Gcn.outK (cI m c) (src m c) (dn m c) (Xf m c) (W0f m c) (B0f m c) (W1f m c) (B1f m c) (W2f m c) (B2f m c)
    (⟨(i 0).val, idx2_lt0 i⟩ : Fin 50000) (⟨(i 1).val, idx2_lt1 i⟩ : Fin 64)

/-- From the two value readings — the kernel's result at an entry is the first spelling of the launch memory's arguments
    (`hK`), the reference's result term at an entry is the second spelling of its arguments (`hR`) — the two programs, run
    from memories that agree on the arguments, end with equal results: the index vectors are the same terms, every node factor
    is a nonnegative real, and a message that lands on a node reads that node. -/
theorem algebraic_of
    (hK : ∀ (m : (ℓ : Loc Cert.KernelIdeal.nD Cert.KernelIdeal.τ Cert.KernelIdeal.sig) → Buf (Elt Ideal) ℓ)
        (ρ : Dev Cert.KernelIdeal.nD → PrngReg) (c : Dev Cert.KernelIdeal.nD) (n : Fin 50000) (k : Fin 64),
        (Cert.KernelIdeal.Gen.W10 m ρ c (Proc.devRef .tc Cert.KernelIdeal.main_v61) : Cert.KernelIdeal.S50000x64.Idx → EReal) (ix2 n k)
          = Cert.Gcn.outK (cI m c) (src m c) (dn m c) (Xf m c) (W0f m c) (B0f m c) (W1f m c) (B1f m c) (W2f m c) (B2f m c) n k)
    (hR : ∀ (x : FVec Ideal Cert.ReferenceIdeal.S50000x128 .f32) (ei : IVec Cert.ReferenceIdeal.S2x800000 32)
        (w0 : FVec Ideal Cert.ReferenceIdeal.S128x128 .f32) (b0 : FVec Ideal Cert.ReferenceIdeal.S128 .f32)
        (w1 : FVec Ideal Cert.ReferenceIdeal.S128x128 .f32) (b1 : FVec Ideal Cert.ReferenceIdeal.S128 .f32)
        (w2 : FVec Ideal Cert.ReferenceIdeal.S64x128 .f32) (b2 : FVec Ideal Cert.ReferenceIdeal.S64 .f32) (n : Fin 50000) (k : Fin 64),
        Cert.ReferenceIdeal.ReadP.val_main_v85 (F := Ideal) x ei w0 b0 w1 b1 w2 b2 (ix2 n k)
          = Cert.Gcn.outR (Cert.Gcn.tgt (Cert.ReferenceIdeal.ReadP.val_main_v6 (F := Ideal) ei))
              (Cert.Gcn.nodeOf (Cert.ReferenceIdeal.ReadP.val_main_v3 (F := Ideal) ei))
              (Cert.Gcn.nodeOf (Cert.ReferenceIdeal.ReadP.val_main_v6 (F := Ideal) ei))
              (Cert.Gcn.dinv (Cert.Gcn.tgt (Cert.ReferenceIdeal.ReadP.val_main_v6 (F := Ideal) ei)))
              (fun i j => x (ix2 i j)) (fun o j => w0 (ix2 o j)) (fun o => b0 (ix1 o)) (fun o j => w1 (ix2 o j)) (fun o => b1 (ix1 o))
              (fun o j => w2 (ix2 o j)) (fun o => b2 (ix1 o)) n k) :
    Cert.algebraic_KernelIdeal_ReferenceIdeal := by
  intro m ρ m' ρ' _ hagree
  refine ⟨fun c => outArr m c, ?_, ?_⟩
  · refine (θ_run Cert.KernelIdeal.defs _ _).mono (fun r h c => ⟨(h c).1.trans ?_, (h c).2⟩)
      (Cert.KernelIdeal.RunValue.run_value (F := Ideal) m ρ)
    funext i
    obtain ⟨n, k, rfl⟩ : ∃ (n : Fin 50000) (k : Fin 64), i = ix2 n k := ⟨i 0, i 1, eq_ix2 i⟩
    exact hK m ρ c n k
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7⟩ := hagree c
    rw [Cert.ReferenceIdeal.ReadP.val_main_v85_eq, a0, a1, a2, a3, a4, a5, a6, a7]
    funext i
    obtain ⟨n, k, rfl⟩ : ∃ (n : Fin 50000) (k : Fin 64), i = ix2 n k := ⟨i 0, i 1, eq_ix2 i⟩
    refine (hR _ _ _ _ _ _ _ _ n k).trans ?_
    rw [← colVec_eq, ← rowVec_eq]
    exact (Cert.Gcn.outK_eq_outR _ _ _ _ (fun n => Cert.Gcn.dinv_real _ n)
      (fun e n h => Cert.Gcn.nodeOf_of_tgt _ e n h) _ _ _ _ _ _ _ n k).symm

/-- The idealized kernel and the idealized reference, run from memories that agree on the arguments, end with equal
    results and unchanged arguments. -/
theorem algebraic : Cert.algebraic_KernelIdeal_ReferenceIdeal :=
  algebraic_of Cert.KernelIdeal.KValue.value Cert.ReferenceIdeal.RefValue.ref_value

/-- The five conjuncts together. -/
theorem all : Cert.frame_Kernel ∧ Cert.frame_KernelIdeal ∧ Cert.frame_ReferenceIdeal ∧ Cert.preserves_Kernel_KernelIdeal
    ∧ Cert.algebraic_KernelIdeal_ReferenceIdeal :=
  ⟨frame_p, frame_pi, frame_ri, preserves, algebraic⟩

end Cert.Proof.Bridge

end
-- ==== Proof.lean ====
/-
  The proof of `Cert.Claim` for a three-layer graph convolution with symmetric degree normalisation (50000 nodes, 800000
  edges and one self-loop per node, feature widths 128, 128, 64).

  The kernel's program scales every node's projected features by the node's factor `d` — the reciprocal square root of
  the number of messages landing on the node — inside its dense kernels, gathers and accumulates the scaled rows on the
  host, and scales the accumulated total by the receiving node's factor in the next kernel; the reference scales every
  message by the product of both end factors. Over the extended reals the two agree entry by entry: every `d n` is a
  nonnegative real number (a count that includes the node's own self-loop), so it distributes over the finite accumulated
  sum whatever the features are, and a message that lands on node `n` reads factor `d n` in the reference's product
  (GcnSpec.lean, GcnGraph.lean). The kernel's value is read off its run segment by segment (KernelRun.lean, KernelHost.lean,
  Region0.lean … Region3.lean, KernelValue.lean), the reference's off its run operation by operation (RefValue.lean), and
  Bridge.lean joins them. The ideal pass rewrote no operation, so there is nothing to preserve.
-/
import proofs.«101799_j10368051053156_2_alg».proof.Defs
import proofs.«101799_j10368051053156_2_alg».proof.Proof.Gen.Kernel
import proofs.«101799_j10368051053156_2_alg».proof.Proof.Gen.Kernel.Skeleton
import proofs.«101799_j10368051053156_2_alg».proof.Proof.Gen.Kernel.Launch
import proofs.«101799_j10368051053156_2_alg».proof.Proof.Gen.Kernel.Points
import proofs.«101799_j10368051053156_2_alg».proof.Proof.Gen.Kernel.Frame
import proofs.«101799_j10368051053156_2_alg».proof.Proof.Gen.KernelIdeal
import proofs.«101799_j10368051053156_2_alg».proof.Proof.Gen.KernelIdeal.Skeleton
import proofs.«101799_j10368051053156_2_alg».proof.Proof.Gen.KernelIdeal.Launch
import proofs.«101799_j10368051053156_2_alg».proof.Proof.Gen.KernelIdeal.Points
import proofs.«101799_j10368051053156_2_alg».proof.Proof.Gen.KernelIdeal.Frame
import proofs.«101799_j10368051053156_2_alg».proof.Proof.Gen.ReferenceIdeal
import proofs.«101799_j10368051053156_2_alg».proof.Proof.RefRun
import proofs.«101799_j10368051053156_2_alg».proof.Proof.RefRead
import proofs.«101799_j10368051053156_2_alg».proof.Proof.Gen.Pre_finite_inputs
import proofs.«101799_j10368051053156_2_alg».proof.Proof.Bridge
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Cert.Proof.Bridge.all⟩

end Cert.Proof

end
